-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S3072 .f32) (main_arg5 : FVec F S1024x1024 .f32) (main_arg6 : FVec F S1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2048x1024 .f32) (main_arg1 : FVec F S2x2048x1024 .f32) (main_arg2 : FVec F S2x2048x1024 .f32) (main_arg3 : FVec F S3072x1024 .f32) (main_arg4 : FVec F S3072 .f32) (main_arg5 : FVec F S1024x1024 .f32) (main_arg6 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1024 : Shape := ⟨2, ![1, 1024]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x16x64 : Shape := ⟨3, ![512, 16, 64]⟩
abbrev S16x512x64 : Shape := ⟨3, ![16, 512, 64]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 26
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S2x16x2048x64, .bf16⟩
  | .hbm, ⟨18, _⟩ => ⟨S1x1024, .f32⟩
  | .hbm, ⟨19, _⟩ => ⟨S2x16x2048x64, .bf16⟩
  | .hbm, ⟨20, _⟩ => ⟨S1x1024, .f32⟩
  | .hbm, ⟨21, _⟩ => ⟨S2x16x2048x64, .bf16⟩
  | .hbm, ⟨22, _⟩ => ⟨S2x16x2048x64, .bf16⟩
  | .hbm, ⟨23, _⟩ => ⟨S1024x1024, .f32⟩
  | .hbm, ⟨24, _⟩ => ⟨S1x1024, .f32⟩
  | .hbm, ⟨25, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1x1024, .f32⟩
  | .local _ .vmem, ⟨10, _⟩ => ⟨S1x16x512x64, .bf16⟩
  | .local _ .vmem, ⟨11, _⟩ => ⟨S1x16x512x64, .bf16⟩
  | .local _ .vmem, ⟨12, _⟩ => ⟨S1x512x1024, .f32⟩
  | .local _ .vmem, ⟨13, _⟩ => ⟨S1x512x1024, .f32⟩
  | .local _ .vmem, ⟨14, _⟩ => ⟨S1024x1024, .f32⟩
  | .local _ .vmem, ⟨15, _⟩ => ⟨S1x1024, .f32⟩
  | .local _ .vmem, ⟨16, _⟩ => ⟨S1x16x512x64, .bf16⟩
  | .local _ .vmem, ⟨17, _⟩ => ⟨S1x16x512x64, .bf16⟩
  | .local _ .vmem, ⟨18, _⟩ => ⟨S1x1x512x64, .bf16⟩
  | .local _ .vmem, ⟨19, _⟩ => ⟨S1x1x512x64, .bf16⟩
  | .local _ .vmem, ⟨20, _⟩ => ⟨S1x1x2048x64, .bf16⟩
  | .local _ .vmem, ⟨21, _⟩ => ⟨S1x1x2048x64, .bf16⟩
  | .local _ .vmem, ⟨22, _⟩ => ⟨S1x1x2048x64, .bf16⟩
  | .local _ .vmem, ⟨23, _⟩ => ⟨S1x1x2048x64, .bf16⟩
  | .local _ .vmem, ⟨24, _⟩ => ⟨S1x1x512x64, .bf16⟩
  | .local _ .vmem, ⟨25, _⟩ => ⟨S1x1x512x64, .bf16⟩
  | .local _ .vmem, ⟨26, _⟩ => ⟨S1x16x512x64, .bf16⟩
  | .local _ .vmem, ⟨27, _⟩ => ⟨S1x16x512x64, .bf16⟩
  | .local _ .vmem, ⟨28, _⟩ => ⟨S1024x1024, .f32⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x16x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![2, 16, 4], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S1x1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨2, ![2, 4], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x16x512x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x1024_S1024x1024_1_0 : S1024x1024.Transposes [1, 0] S1024x1024
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S16x512x64_p1_0_2_S512x16x64 : S16x512x64.Transposes [1, 0, 2] S512x16x64
  shapeCasts_S512x16x64_S512x1024 : S512x16x64.ShapeCasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .bf16 = 32 ∨ (Rect.block (s := S2x16x2048x64) S1x16x512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .f32 = 32 ∨ (Rect.block (s := S2x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x512x64.size a ≤ S2x16x2048x64.size a
  hwx1_3 : ∀ i : grid1.Coords, EltTy.bits .bf16 = 32 ∨ (Rect.block (s := S2x16x2048x64) S1x16x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S2x2048x1024.size a
  hwx2_0 : ∀ i : grid2.Coords, EltTy.bits .f32 = 32 ∨ (Rect.block (s := S2x2048x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x16x512x64.size a ≤ S2x16x2048x64.size a
  hwx2_3 : ∀ i : grid2.Coords, EltTy.bits .bf16 = 32 ∨ (Rect.block (s := S2x16x2048x64) S1x16x512x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S2x16x2048x64.size a
  hwx3_0 : ∀ i : grid3.Coords, EltTy.bits .bf16 = 32 ∨ (Rect.block (s := S2x16x2048x64) S1x1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x16x2048x64.size a
  hwx3_1 : ∀ i : grid3.Coords, EltTy.bits .bf16 = 32 ∨ (Rect.block (s := S2x16x2048x64) S1x1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x16x2048x64.size a
  hwx3_2 : ∀ i : grid3.Coords, EltTy.bits .bf16 = 32 ∨ (Rect.block (s := S2x16x2048x64) S1x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512x64.size a ≤ S2x16x2048x64.size a
  hwx3_3 : ∀ i : grid3.Coords, EltTy.bits .bf16 = 32 ∨ (Rect.block (s := S2x16x2048x64) S1x1x512x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x16x512x64.size a ≤ S2x16x2048x64.size a
  hwx4_0 : ∀ i : grid4.Coords, EltTy.bits .bf16 = 32 ∨ (Rect.block (s := S2x16x2048x64) S1x16x512x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x512x1024.size a ≤ S2x2048x1024.size a
  hwx4_3 : ∀ i : grid4.Coords, EltTy.bits .f32 = 32 ∨ (Rect.block (s := S2x2048x1024) S1x512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x16x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x16x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v10) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v15) S1x16x512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S1x512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x2048x16x64, .f32⟩
  | .hbm, ⟨28, _⟩ => ⟨S2x16x2048x64, .f32⟩
  | .hbm, ⟨29, _⟩ => ⟨S2x2048x16x64, .f32⟩
  | .hbm, ⟨30, _⟩ => ⟨S2x16x2048x64, .f32⟩
  | .hbm, ⟨31, _⟩ => ⟨S2x16x2048x2048, .f32⟩
  | .hbm, ⟨32, _⟩ => ⟨S_, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x64, .f32⟩
  | .hbm, ⟨50, _⟩ => ⟨S2x2048x16x64, .f32⟩
  | .hbm, ⟨51, _⟩ => ⟨S2x2048x1024, .f32⟩
  | .hbm, ⟨52, _⟩ => ⟨S2x2048x1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with its result named.

  The program is five kernel regions among stretches of host operations. Its contents at each segment
  boundary are a fold from the launch memory, and at the last boundary every buffer the program does not scope
  holds that fold's value. The frame reads the seven argument buffers off that last boundary; read the same way,
  the result buffer holds the fold's value at the result, which the value modules then compute.
-/
import proofs.«157763_j27376121545288_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the seven
    arguments as launched. -/
theorem run : θ_run defs (onTc (τ := τ) (main (F := F))) ⟨m, fun _ => 0, ρ⟩ (fun r => ∀ c : Dev nD,
      r.2.mem ((c.tc : Thread nD τ).loc main_v18) = W9 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v18 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.Spec.lean ====
/-
  Multi-head attention on the extended reals, index by index.

  An activation array is [batch 2, position 2048, feature 1024]; a head-major array is [batch 2, head 16,
  position 2048, lane 64], feature h * 64 + d being lane d of head h. A linear layer into head-major
  layout contracts the feature axis of the activations with the rows of a [1024, 1024] matrix and adds a
  bias row. Attention, per batch and head: the score of query position s against key position t is the
  contraction of their 64 lanes times 1/8; a score row is shifted by its maximum (the fold of max from
  minus infinity over the key positions), exponentiated, and divided by the row's sum; the result mixes the
  value rows with those weights. The output layer merges the heads back into features and is linear again.
  The three input layers read their weights from the three 1024-row blocks of one [3072, 1024] matrix,
  transposed, and their biases from the three blocks of one [3072] vector.

  Nothing here assumes a finite entry: every definition is a composition of sums, products, max, exp and
  the extended reals' quotient, and the two programs are compared by rearranging indices only.
-/
import Idealize.ShloMosaic.PureOps.Ideal
import Idealize.ShloMosaic.Lib.ValueIdx

noncomputable section

open scoped BigOperators

namespace Cert.MHA

open Idealize.ShloMosaic Idealize.ShloMosaic.ValueIdx

/-- Activations: [batch, position, feature]. -/
abbrev Tok := (⟨3, ![2, 2048, 1024]⟩ : Shape).Idx → EReal
/-- Head-major arrays: [batch, head, position, lane]. -/
abbrev Heads := (⟨4, ![2, 16, 2048, 64]⟩ : Shape).Idx → EReal
/-- A square weight matrix. -/
abbrev Sq := (⟨2, ![1024, 1024]⟩ : Shape).Idx → EReal
/-- A bias as a one-row matrix. -/
abbrev Row := (⟨2, ![1, 1024]⟩ : Shape).Idx → EReal
/-- The three input weight matrices stacked by rows. -/
abbrev Stack := (⟨2, ![3072, 1024]⟩ : Shape).Idx → EReal
/-- The three input biases stacked. -/
abbrev StackB := (⟨1, ![3072]⟩ : Shape).Idx → EReal
/-- The output bias. -/
abbrev Bias := (⟨1, ![1024]⟩ : Shape).Idx → EReal

/-- Feature h * 64 + d is lane d of head h. -/
def feat (h : Fin 16) (d : Fin 64) : Fin 1024 := ⟨h.val * 64 + d.val, by have := h.isLt; have := d.isLt; omega⟩
/-- The head a feature belongs to. -/
def headOf (e : Fin 1024) : Fin 16 := ⟨e.val / 64, by have := e.isLt; omega⟩
/-- The lane of a feature inside its head. -/
def laneOf (e : Fin 1024) : Fin 64 := ⟨e.val % 64, by omega⟩
/-- Row f of the block of the stacked matrix that starts at row off. -/
def shift (off : Nat) (hoff : off ≤ 2048) (f : Fin 1024) : Fin 3072 := ⟨off + f.val, by have := f.isLt; omega⟩

theorem feat_headOf_laneOf (e : Fin 1024) : feat (headOf e) (laneOf e) = e :=
  Fin.ext (by show e.val / 64 * 64 + e.val % 64 = e.val; omega)
theorem headOf_feat (h : Fin 16) (d : Fin 64) : headOf (feat h d) = h :=
  Fin.ext (by have := h.isLt; have := d.isLt; show (h.val * 64 + d.val) / 64 = h.val; omega)
theorem laneOf_feat (h : Fin 16) (d : Fin 64) : laneOf (feat h d) = d :=
  Fin.ext (by have := h.isLt; have := d.isLt; show (h.val * 64 + d.val) % 64 = d.val; omega)

/-- The block of the stacked weights that starts at row off, transposed: entry (e, f) is row off + f, column e. -/
def blockT (off : Nat) (hoff : off ≤ 2048) (w : Stack) : Sq := fun i => w (ix2 (shift off hoff (i 1)) (i 0))
/-- The block of the stacked biases that starts at off, as a one-row matrix. -/
def blockRow (off : Nat) (hoff : off ≤ 2048) (b : StackB) : Row := fun i => b (ix1 (shift off hoff (i 1)))
/-- A square matrix transposed. -/
def transp (w : Sq) : Sq := fun i => w (ix2 (i 1) (i 0))
/-- A bias vector as a one-row matrix. -/
def asRow (b : Bias) : Row := fun i => b (ix1 (i 1))

theorem blockT_apply (off : Nat) (hoff : off ≤ 2048) (w : Stack) (e f : Fin 1024) :
    blockT off hoff w (ix2 e f) = w (ix2 (shift off hoff f) e) := rfl
theorem blockRow_apply (off : Nat) (hoff : off ≤ 2048) (b : StackB) (z : Fin 1) (f : Fin 1024) :
    blockRow off hoff b (ix2 z f) = b (ix1 (shift off hoff f)) := rfl
theorem transp_apply (w : Sq) (e f : Fin 1024) : transp w (ix2 e f) = w (ix2 f e) := rfl
theorem asRow_apply (b : Bias) (z : Fin 1) (f : Fin 1024) : asRow b (ix2 z f) = b (ix1 f) := rfl

/-- A linear layer into head-major layout: lane d of head h at position s is row s of the activations
    against column h * 64 + d of the matrix, plus that column's bias. -/
def proj (x : Tok) (wt : Sq) (b : Row) : Heads := fun j =>
  (∑ e : Fin 1024, x (ix3 (j 0) (j 2) e) * wt (ix2 e (feat (j 1) (j 3)))) + b (ix2 (0 : Fin 1) (feat (j 1) (j 3)))

theorem proj_apply (x : Tok) (wt : Sq) (b : Row) (n : Fin 2) (h : Fin 16) (s : Fin 2048) (d : Fin 64) :
    proj x wt b (ix4 n h s d) = (∑ e : Fin 1024, x (ix3 n s e) * wt (ix2 e (feat h d))) + b (ix2 (0 : Fin 1) (feat h d)) := rfl

/-- The score of query position s against key position t, in batch n and head h. -/
def score (q k : Heads) (n : Fin 2) (h : Fin 16) (s t : Fin 2048) : EReal :=
  (∑ d : Fin 64, q (ix4 n h s d) * k (ix4 n h t d)) * Ideal.ofBits .f32 0x3E000000#32

/-- A row's maximum: the fold of max from minus infinity. -/
def rowMax (f : Fin 2048 → EReal) : EReal :=
  (Finset.univ : Finset (Fin 2048)).fold max (Ideal.ofBits .f32 0xFF800000#32) f

/-- The shifted, exponentiated score. -/
def unnorm (q k : Heads) (n : Fin 2) (h : Fin 16) (s t : Fin 2048) : EReal :=
  Ideal.exp (score q k n h s t - rowMax (score q k n h s))

/-- The attention weight of key position t for query position s. -/
def weight (q k : Heads) (n : Fin 2) (h : Fin 16) (s t : Fin 2048) : EReal :=
  Ideal.div (unnorm q k n h s t) (∑ t' : Fin 2048, unnorm q k n h s t')

/-- Attention: the value rows mixed by the weights. -/
def attend (q k v : Heads) : Heads := fun j =>
  ∑ t : Fin 2048, weight q k (j 0) (j 1) (j 2) t * v (ix4 (j 0) (j 1) t (j 3))

theorem attend_apply (q k v : Heads) (n : Fin 2) (h : Fin 16) (s : Fin 2048) (d : Fin 64) :
    attend q k v (ix4 n h s d) = ∑ t : Fin 2048, weight q k n h s t * v (ix4 n h t d) := rfl

/-- The output layer: the heads merged back into features, then a linear layer. -/
def outp (a : Heads) (wt : Sq) (b : Row) : Tok := fun i =>
  (∑ e : Fin 1024, a (ix4 (i 0) (headOf e) (i 1) (laneOf e)) * wt (ix2 e (i 2))) + b (ix2 (0 : Fin 1) (i 2))

theorem outp_apply (a : Heads) (wt : Sq) (b : Row) (n : Fin 2) (s : Fin 2048) (f : Fin 1024) :
    outp a wt b (ix3 n s f) = (∑ e : Fin 1024, a (ix4 n (headOf e) s (laneOf e)) * wt (ix2 e f)) + b (ix2 (0 : Fin 1) f) := rfl

/-- The whole layer as one function of the seven arguments. -/
def mha (x0 x1 x2 : Tok) (w : Stack) (bias : StackB) (wo : Sq) (bo : Bias) : Tok :=
  outp (attend (proj x0 (blockT 0 (by decide) w) (blockRow 0 (by decide) bias))
               (proj x1 (blockT 1024 (by decide) w) (blockRow 1024 (by decide) bias))
               (proj x2 (blockT 2048 (by decide) w) (blockRow 2048 (by decide) bias)))
       (transp wo) (asRow bo)

end Cert.MHA

end
-- ==== Proof.LibContract.lean ====
/-
  A matrix product with one contracted axis on each side, read at an index, whatever the positions of the contracted
  axes. At the extended reals the matrix unit's product into a zero accumulator at output index j is the sum, over the
  contraction shape's own index type, of left (lhsIdx j q) * right (rhsIdx j q). When that shape has rank one and
  extent K, the sum re-indexes over k : Fin K; the caller names the two operand indices at each k (for a product
  contracting the left operand's FIRST axis, (k, p); for one contracting both LAST axes, (p, k) and (q, k); …) and
  proves that they are what the dimension numbers say.
-/
import Idealize.ShloMosaic.PureOps.Ideal
import Idealize.ShloMosaic.PureOps.Ideal.Laws
import Idealize.ShloMosaic.Lib.ValueIdx

noncomputable section

open scoped BigOperators

namespace Cert.Bridge.LibContract

open Idealize.ShloMosaic Idealize.ShloMosaic.ValueIdx

/-- The contraction's sum over the textbook index k : Fin K, given the operand indices at each k. -/
theorem contr_sum {sl sr so : Shape} (D : DotDims sl sr so) (K : Nat) (hr : D.contr.rank = 1)
    (hs : D.contr.size ⟨0, by rw [hr]; exact Nat.one_pos⟩ = K)
    (L : sl.Idx → EReal) (R : sr.Idx → EReal) (j : so.Idx) (li : Fin K → sl.Idx) (ri : Fin K → sr.Idx)
    (hl : ∀ k : Fin K, D.lhsIdx j ((contrEquiv1 D K hr hs).symm k) = li k)
    (hri : ∀ k : Fin K, D.rhsIdx j ((contrEquiv1 D K hr hs).symm k) = ri k) :
    ∑ q : D.contr.Idx, L (D.lhsIdx j q) * R (D.rhsIdx j q) = ∑ k : Fin K, L (li k) * R (ri k) := by
  rw [← Equiv.sum_comp (contrEquiv1 D K hr hs).symm]
  exact Finset.sum_congr rfl fun k _ => by rw [hl k, hri k]

/-- The matrix unit's product into the zero accumulator, at the extended reals, read at j. -/
theorem matmul_zero_apply {sl sr so : Shape} {φ₁ φ₂ : FTy} (D : DotDims sl sr so) (prec : Option ContractPrecision)
    (K : Nat) (hr : D.contr.rank = 1) (hs : D.contr.size ⟨0, by rw [hr]; exact Nat.one_pos⟩ = K)
    (L : FVec Ideal sl φ₁) (R : FVec Ideal sr φ₂) (j : so.Idx) (li : Fin K → sl.Idx) (ri : Fin K → sr.Idx)
    (hl : ∀ k : Fin K, D.lhsIdx j ((contrEquiv1 D K hr hs).symm k) = li k)
    (hri : ∀ k : Fin K, D.rhsIdx j ((contrEquiv1 D K hr hs).symm k) = ri k) :
    FloatOps.matmul D prec L R (constant so .f32 0x00000000#32) j = ∑ k : Fin K, L (li k) * R (ri k) :=
  (Ideal.matmul_constant_zero_apply D prec L R j).trans (contr_sum D K hr hs L R j li ri hl hri)

end Cert.Bridge.LibContract

end
-- ==== Proof.ProjBody.lean ====
/-
  The input projection's kernel body, read at an index.

  One grid point of an input projection loads a [1, 512, 1024] block of activations, the whole [1024, 1024] weight
  matrix and the [1, 1024] bias row, and stores a [1, 16, 512, 64] head-major block. The stored value at head h,
  row r, lane d is the contraction of row r of the activation block with column h * 64 + d of the matrix, plus
  entry h * 64 + d of the bias row: the changes of float format are the identity on the extended reals, the
  matrix product accumulates into zero, the bias row is spread over the 512 rows, and the split of the 1024
  columns into 16 heads of 64 lanes followed by the exchange of the row and head axes only moves the element.
-/
import proofs.«157763_j27376121545288_2_alg».proof.Proof.Gen.KernelIdeal.Skeleton
import proofs.«157763_j27376121545288_2_alg».proof.Proof.Spec
import proofs.«157763_j27376121545288_2_alg».proof.Proof.LibContract
import Idealize.ShloMosaic.Lib.Pipeline.Value
import Idealize.ShloMosaic.Lib.ValueIdx
import Idealize.ShloMosaic.Lib.ValueLayout

noncomputable section

open scoped BigOperators

namespace Cert.KernelIdeal.ProjBody

open Cert.KernelIdeal Cert.KernelIdeal.Gen
open Idealize.ShloMosaic Idealize.ShloMosaic.ValueIdx

/-! ## The matrix product at an index

The dimension numbers contract the left operand's second axis with the right operand's first; the left operand's
first axis and the right operand's second are the result's two axes. -/

theorem lhs_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem lhs_contr (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q

theorem rhs_contr (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q

theorem rhs_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The matrix product of the body, into the zero accumulator, at row r and column f: the contraction over the
    1024 features of the left operand's row r with the right operand's column f. -/
theorem matmul_apply (L : FVec Ideal S512x1024 .bf16) (R : FVec Ideal S1024x1024 .bf16) (r : Fin 512) (f : Fin 1024) :
    FloatOps.matmul dot_S512x1024_S1024x1024_S512x1024_1_0_0_1_n_n none L R (constant S512x1024 .f32 0x00000000#32) (ix2 r f)
      = ∑ e : Fin 1024, L (ix2 r e) * R (ix2 e f) := by
  refine Cert.Bridge.LibContract.matmul_zero_apply dot_S512x1024_S1024x1024_S512x1024_1_0_0_1_n_n none 1024 rfl rfl
    L R (ix2 r f) (fun e => ix2 r e) (fun e => ix2 e f) (fun e => ?_) (fun e => ?_)
  · have hk := contrEquiv1_symm_val dot_S512x1024_S1024x1024_S512x1024_1_0_0_1_n_n 1024 rfl rfl e
    exact funext fun a => Fin.ext (by
      match a with
      | ⟨0, _⟩ => exact lhs_row _ _
      | ⟨1, _⟩ => exact (lhs_contr _ _).trans hk)
  · have hk := contrEquiv1_symm_val dot_S512x1024_S1024x1024_S512x1024_1_0_0_1_n_n 1024 rfl rfl e
    exact funext fun a => Fin.ext (by
      match a with
      | ⟨0, _⟩ => exact (rhs_contr _ _).trans hk
      | ⟨1, _⟩ => exact rhs_col _ _)

/-! ## The stored value at an index -/

/-- What one grid point of the first projection stores at head h, row r, lane d of its block: row r of the
    activation block against column h * 64 + d of the matrix, plus that column's bias. -/
theorem pay0_apply (x0 : Vec Ideal S1x512x1024 .f32) (x1 : Vec Ideal S1024x1024 .f32) (x2 : Vec Ideal S1x1024 .f32)
    (z : Fin 1) (h : Fin 16) (r : Fin 512) (d : Fin 64) :
    k0_pay1 (F := Ideal) x0 x1 x2 (ix4 z h r d)
      = (∑ e : Fin 1024, x0 (ix3 (0 : Fin 1) r e) * x1 (ix2 e (Cert.MHA.feat h d))) + x2 (ix2 (0 : Fin 1) (Cert.MHA.feat h d)) := by
  unfold k0_pay1
  -- the leading unit axis of the stored block
  refine (shapeCast_abc_1abc_apply _ shapeCasts_S16x512x64_S1x16x512x64 z h r d).trans ?_
  refine (truncf_apply _ bitsLt_bf16_f32 _).trans ?_
  -- the head axis and the row axis exchanged
  refine (transpose_apply [1, 0, 2] _ transposes_S512x16x64_p1_0_2_S16x512x64 (ix3 h r d) (ix3 r h d)
    (fun b => match b with | ⟨0, _⟩ => rfl | ⟨1, _⟩ => rfl | ⟨2, _⟩ => rfl)).trans ?_
  -- the 1024 columns split into 16 heads of 64 lanes: column h * 64 + d
  refine (shapeCast_apply _ shapeCasts_S512x1024_S512x16x64 (ix3 r h d) (ix2 r (Cert.MHA.feat h d)) ?_).trans ?_
  · rw [Shape.rowMajor_val_two, Shape.rowMajor_val_three]
    show r.val * 1024 + (h.val * 64 + d.val) = (r.val * 16 + h.val) * 64 + d.val
    omega
  refine (addf_apply _ _ _).trans ?_
  refine congrArg₂ (· + ·) ?_ ?_
  · -- the product into the zero accumulator
    refine (matmul_apply _ _ r (Cert.MHA.feat h d)).trans ?_
    refine Finset.sum_congr rfl fun e _ => ?_
    refine congrArg₂ (· * ·) ?_ ?_
    · refine (truncf_apply _ bitsLt_bf16_f32 _).trans ?_
      exact shapeCast_1ab_ab_apply x0 shapeCasts_S1x512x1024_S512x1024 r e
    · refine (truncf_apply _ bitsLt_bf16_f32 _).trans ?_
      exact congrFun (shapeCast_self x1 shapeCasts_S1024x1024_S1024x1024) _
  · -- the bias row spread over the rows
    refine (broadcastTo_1b_ab_apply _ broadcasts_S1x1024_S512x1024 r (Cert.MHA.feat h d)).trans ?_
    exact congrFun (shapeCast_self x2 shapeCasts_S1x1024_S1x1024) _

/-- The second and third projections run the same body. -/
theorem pay1_eq_pay0 : @k1_pay1 Ideal _ = @k0_pay1 Ideal _ := rfl
theorem pay2_eq_pay0 : @k2_pay1 Ideal _ = @k0_pay1 Ideal _ := rfl

theorem pay1_apply (x0 : Vec Ideal S1x512x1024 .f32) (x1 : Vec Ideal S1024x1024 .f32) (x2 : Vec Ideal S1x1024 .f32)
    (z : Fin 1) (h : Fin 16) (r : Fin 512) (d : Fin 64) :
    k1_pay1 (F := Ideal) x0 x1 x2 (ix4 z h r d)
      = (∑ e : Fin 1024, x0 (ix3 (0 : Fin 1) r e) * x1 (ix2 e (Cert.MHA.feat h d))) + x2 (ix2 (0 : Fin 1) (Cert.MHA.feat h d)) :=
  (congrFun (congrFun (congrFun (congrFun pay1_eq_pay0 x0) x1) x2) (ix4 z h r d)).trans (pay0_apply x0 x1 x2 z h r d)

theorem pay2_apply (x0 : Vec Ideal S1x512x1024 .f32) (x1 : Vec Ideal S1024x1024 .f32) (x2 : Vec Ideal S1x1024 .f32)
    (z : Fin 1) (h : Fin 16) (r : Fin 512) (d : Fin 64) :
    k2_pay1 (F := Ideal) x0 x1 x2 (ix4 z h r d)
      = (∑ e : Fin 1024, x0 (ix3 (0 : Fin 1) r e) * x1 (ix2 e (Cert.MHA.feat h d))) + x2 (ix2 (0 : Fin 1) (Cert.MHA.feat h d)) :=
  (congrFun (congrFun (congrFun (congrFun pay2_eq_pay0 x0) x1) x2) (ix4 z h r d)).trans (pay0_apply x0 x1 x2 z h r d)

/-! ## A stored block as a block of the layer

Let j be an index of the stored block and i an index of the head-major array with the same head and lane. When
row (j 2) of the activation block is row (i 2) of batch (i 0) of the activations, and the matrix and the bias row
are loaded whole, what the body stores at j is the linear layer at i. -/

theorem pay0_eq_proj (X : Cert.MHA.Tok) (W : Cert.MHA.Sq) (B : Cert.MHA.Row)
    (x0 : Vec Ideal S1x512x1024 .f32) (x1 : Vec Ideal S1024x1024 .f32) (x2 : Vec Ideal S1x1024 .f32)
    (j : S1x16x512x64.Idx) (i : S2x16x2048x64.Idx)
    (hh : (i 1).val = (j 1).val) (hd : (i 3).val = (j 3).val)
    (h0 : ∀ e : Fin 1024, x0 (ix3 (0 : Fin 1) (j 2) e) = X (ix3 (i 0) (i 2) e))
    (h1 : ∀ e f : Fin 1024, x1 (ix2 e f) = W (ix2 e f))
    (h2 : ∀ f : Fin 1024, x2 (ix2 (0 : Fin 1) f) = B (ix2 (0 : Fin 1) f)) :
    k0_pay1 (F := Ideal) x0 x1 x2 j = Cert.MHA.proj X W B i := by
  have e1 : (j 1 : Fin 16) = i 1 := Fin.ext hh.symm
  have e3 : (j 3 : Fin 64) = i 3 := Fin.ext hd.symm
  refine (congrArg (k0_pay1 (F := Ideal) x0 x1 x2) (eq_ix4 j)).trans ?_
  refine (pay0_apply x0 x1 x2 (j 0) (j 1) (j 2) (j 3)).trans ?_
  refine Eq.trans ?_ (congrArg (Cert.MHA.proj X W B) (eq_ix4 i)).symm
  refine Eq.trans ?_ (Cert.MHA.proj_apply X W B (i 0) (i 1) (i 2) (i 3)).symm
  rw [e1, e3, h2]
  exact congrArg (· + B (ix2 (0 : Fin 1) (Cert.MHA.feat (i 1) (i 3)))) (Finset.sum_congr rfl fun e _ => by rw [h0, h1])

theorem pay1_eq_proj (X : Cert.MHA.Tok) (W : Cert.MHA.Sq) (B : Cert.MHA.Row)
    (x0 : Vec Ideal S1x512x1024 .f32) (x1 : Vec Ideal S1024x1024 .f32) (x2 : Vec Ideal S1x1024 .f32)
    (j : S1x16x512x64.Idx) (i : S2x16x2048x64.Idx)
    (hh : (i 1).val = (j 1).val) (hd : (i 3).val = (j 3).val)
    (h0 : ∀ e : Fin 1024, x0 (ix3 (0 : Fin 1) (j 2) e) = X (ix3 (i 0) (i 2) e))
    (h1 : ∀ e f : Fin 1024, x1 (ix2 e f) = W (ix2 e f))
    (h2 : ∀ f : Fin 1024, x2 (ix2 (0 : Fin 1) f) = B (ix2 (0 : Fin 1) f)) :
    k1_pay1 (F := Ideal) x0 x1 x2 j = Cert.MHA.proj X W B i :=
  (congrFun (congrFun (congrFun (congrFun pay1_eq_pay0 x0) x1) x2) j).trans
    (pay0_eq_proj X W B x0 x1 x2 j i hh hd h0 h1 h2)

theorem pay2_eq_proj (X : Cert.MHA.Tok) (W : Cert.MHA.Sq) (B : Cert.MHA.Row)
    (x0 : Vec Ideal S1x512x1024 .f32) (x1 : Vec Ideal S1024x1024 .f32) (x2 : Vec Ideal S1x1024 .f32)
    (j : S1x16x512x64.Idx) (i : S2x16x2048x64.Idx)
    (hh : (i 1).val = (j 1).val) (hd : (i 3).val = (j 3).val)
    (h0 : ∀ e : Fin 1024, x0 (ix3 (0 : Fin 1) (j 2) e) = X (ix3 (i 0) (i 2) e))
    (h1 : ∀ e f : Fin 1024, x1 (ix2 e f) = W (ix2 e f))
    (h2 : ∀ f : Fin 1024, x2 (ix2 (0 : Fin 1) f) = B (ix2 (0 : Fin 1) f)) :
    k2_pay1 (F := Ideal) x0 x1 x2 j = Cert.MHA.proj X W B i :=
  (congrFun (congrFun (congrFun (congrFun pay2_eq_pay0 x0) x1) x2) j).trans
    (pay0_eq_proj X W B x0 x1 x2 j i hh hd h0 h1 h2)

/-! ## Zero offsets, however spelt -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

end Cert.KernelIdeal.ProjBody

end
-- ==== Proof.ProjValue0.lean ====
/-
  Input projection 0: the array its grid leaves is the linear layer of its three operands.

  The grid is 2 batches by 4 row tiles. Point (n, q) reads rows 512 q … 512 q + 511 of batch n of the activations,
  the whole matrix and the whole bias row, and writes back the [1, 16, 512, 64] block at batch n, rows 512 q … of
  the head-major output. The stored block is the linear layer read through that block; the eight blocks fill the
  [2, 16, 2048, 64] array, so the array after the last point is the linear layer everywhere.
-/
import proofs.«157763_j27376121545288_2_alg».proof.Proof.Gen.KernelIdeal.Frame
import proofs.«157763_j27376121545288_2_alg».proof.Proof.Spec
import proofs.«157763_j27376121545288_2_alg».proof.Proof.ProjBody
import Idealize.ShloMosaic.Lib.Pipeline.Value

noncomputable section

open Idealize.ShloMosaic Idealize.ShloMosaic.TcCoe Idealize.SL.Sem
open Idealize.ShloMosaic.Pipeline (Dat)

namespace Cert.KernelIdeal.ProjValue

open Cert.KernelIdeal Cert.KernelIdeal.Gen Cert.KernelIdeal.ProjBody
open Idealize.ShloMosaic.ValueIdx

variable (V : (c : Dev nD) → (b : Ref sig .tc) → Buf (Elt Ideal) ((c : Thread nD τ).loc b))

/-- The printed index maps over the eight grid points: the activation window moves with the output window (batch
    with batch, row tile with row tile) and stays at feature block 0; the matrix and the bias row stay at block
    (0, 0); the output window stays at head block 0 and lane block 0, its batch below 2 and its row tile below 4. -/
theorem idx_facts0 : ∀ t : Fin cfg0.N,
    win0_0.index t (0 : Fin 3) = win0_3.index t (0 : Fin 4)
    ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (3 : Fin 4) = 0
    ∧ win0_3.index t (0 : Fin 4) ≤ 1 ∧ win0_3.index t (2 : Fin 4) ≤ 3 :=
  (by decide +kernel : ∀ t : Fin grid0.N, _)

/-- Every (batch, row tile) pair is some point's output block. -/
theorem idx_onto0 : ∀ (q0 : Fin 2) (q2 : Fin 4), ∃ t : Fin cfg0.N, win0_3.index t = ![q0.val, 0, q2.val, 0] :=
  (by decide +kernel : ∀ (q0 : Fin 2) (q2 : Fin 4), ∃ t : Fin grid0.N, win0_3.index t = ![q0.val, 0, q2.val, 0])

/-- What point t writes back is block t of the linear layer of the three operand arrays as the region finds them. -/
theorem flushed0_eq (c : Dev nD) (t : Fin cfg0.N) :
    (dat0 (F := Ideal) V c).flushed 3 t
      = ((cfg0.win 3).blk t).view.read (Elt Ideal) (Cert.MHA.proj (V c main_arg0) (V c main_v6) (V c main_v9)) := by
  show (cfg0.win 3).cut (grid0.coords t) ((dat0 (F := Ideal) V c).after 3 t) = _
  rw [after0_3]
  unfold out0_3
  rw [View.canon_unit_zero zeros4]
  simp only [View.ld_unit_zero (S := S1x512x1024) zeros3, View.ld_unit_zero (S := S1024x1024) zeros2,
    View.ld_unit_zero (S := S1x1024) zeros2]
  obtain ⟨e0, e1, e2, e3, e4, e5, e6, e7, e8, e9, e10⟩ := idx_facts0 t
  funext j
  have hj0 : (j 0).val < 1 := (j 0).isLt
  have hj1 : (j 1).val < 16 := (j 1).isLt
  have hj2 : (j 2).val < 512 := (j 2).isLt
  have hj3 : (j 3).val < 64 := (j 3).isLt
  show k0_pay1 (iblk0 V c 0 t) (iblk0 V c 1 t) (iblk0 V c 2 t) j
    = Cert.MHA.proj (V c main_arg0) (V c main_v6) (V c main_v9) (((cfg0.win 3).blk t).view.emb j)
  refine pay0_eq_proj (V c main_arg0) (V c main_v6) (V c main_v9) (iblk0 V c 0 t) (iblk0 V c 1 t) (iblk0 V c 2 t)
    j (((cfg0.win 3).blk t).view.emb j) ?_ ?_ ?_ ?_ ?_
  · show win0_3.index t (1 : Fin 4) * 16 + 1 * (j 1).val = (j 1).val
    omega
  · show win0_3.index t (3 : Fin 4) * 64 + 1 * (j 3).val = (j 3).val
    omega
  · intro e
    show V c main_arg0 (((cfg0.win 0).blk t).view.emb (ix3 (0 : Fin 1) (j 2) e))
      = V c main_arg0 (ix3 ((((cfg0.win 3).blk t).view.emb j) 0) ((((cfg0.win 3).blk t).view.emb j) 2) e)
    refine congrArg (V c main_arg0) (funext fun a => Fin.ext ?_)
    match a with
    | ⟨0, _⟩ =>
      show win0_0.index t (0 : Fin 3) * 1 + 1 * 0 = win0_3.index t (0 : Fin 4) * 1 + 1 * (j 0).val
      omega
    | ⟨1, _⟩ =>
      show win0_0.index t (1 : Fin 3) * 512 + 1 * (j 2).val = win0_3.index t (2 : Fin 4) * 512 + 1 * (j 2).val
      omega
    | ⟨2, _⟩ =>
      show win0_0.index t (2 : Fin 3) * 1024 + 1 * e.val = e.val
      omega
  · intro e f
    show V c main_v6 (((cfg0.win 1).blk t).view.emb (ix2 e f)) = V c main_v6 (ix2 e f)
    refine congrArg (V c main_v6) (funext fun a => Fin.ext ?_)
    match a with
    | ⟨0, _⟩ =>
      show win0_1.index t (0 : Fin 2) * 1024 + 1 * e.val = e.val
      omega
    | ⟨1, _⟩ =>
      show win0_1.index t (1 : Fin 2) * 1024 + 1 * f.val = f.val
      omega
  · intro f
    show V c main_v9 (((cfg0.win 2).blk t).view.emb (ix2 (0 : Fin 1) f)) = V c main_v9 (ix2 (0 : Fin 1) f)
    refine congrArg (V c main_v9) (funext fun a => Fin.ext ?_)
    match a with
    | ⟨0, _⟩ =>
      show win0_2.index t (0 : Fin 2) * 1 + 1 * 0 = 0
      omega
    | ⟨1, _⟩ =>
      show win0_2.index t (1 : Fin 2) * 1024 + 1 * f.val = f.val
      omega

/-- An index of the output array is in point t's block iff each coordinate is in the block's range on its axis. -/
theorem mem_blk0 (t : Fin cfg0.N) (i : S2x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v10).slice (win0_3.rect t)).set ↔ _
  rw [View.set_slice_whole, Rect.mem_set_unit]
  exact Iff.rfl

/-- Every index of the output array is in some point's block: batch (i 0), row tile (i 2) / 512. -/
theorem covered0 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto0 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk0]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 16 ≤ (i 1).val ∧ (i 1).val < win0_3.index t (1 : Fin 4) * 16 + 16
    omega
  | ⟨2, _⟩ =>
    show win0_3.index t (2 : Fin 4) * 512 ≤ (i 2).val ∧ (i 2).val < win0_3.index t (2 : Fin 4) * 512 + 512
    omega
  | ⟨3, _⟩ =>
    show win0_3.index t (3 : Fin 4) * 64 ≤ (i 3).val ∧ (i 3).val < win0_3.index t (3 : Fin 4) * 64 + 64
    omega

/-- The array after the region's last point: the linear layer of the three operand arrays as the region finds them. -/
theorem final0 (c : Dev nD) :
    (dat0 (F := Ideal) V c).arrAt 3 cfg0.N = Cert.MHA.proj (V c main_arg0) (V c main_v6) (V c main_v9) :=
  (dat0 (F := Ideal) V c).arrAt_eq_of_cover 3 (Cert.MHA.proj (V c main_arg0) (V c main_v6) (V c main_v9))
    (fun t _ => flushed0_eq V c t) covered0

end Cert.KernelIdeal.ProjValue

end
-- ==== Proof.ProjValue1.lean ====
/-
  Input projection 1: the array its grid leaves is the linear layer of its three operands.

  The grid is 2 batches by 4 row tiles. Point (n, q) reads rows 512 q … 512 q + 511 of batch n of the activations,
  the whole matrix and the whole bias row, and writes back the [1, 16, 512, 64] block at batch n, rows 512 q … of
  the head-major output. The stored block is the linear layer read through that block; the eight blocks fill the
  [2, 16, 2048, 64] array, so the array after the last point is the linear layer everywhere.
-/
import proofs.«157763_j27376121545288_2_alg».proof.Proof.Gen.KernelIdeal.Frame
import proofs.«157763_j27376121545288_2_alg».proof.Proof.Spec
import proofs.«157763_j27376121545288_2_alg».proof.Proof.ProjBody
import Idealize.ShloMosaic.Lib.Pipeline.Value

noncomputable section

open Idealize.ShloMosaic Idealize.ShloMosaic.TcCoe Idealize.SL.Sem
open Idealize.ShloMosaic.Pipeline (Dat)

namespace Cert.KernelIdeal.ProjValue

open Cert.KernelIdeal Cert.KernelIdeal.Gen Cert.KernelIdeal.ProjBody
open Idealize.ShloMosaic.ValueIdx

variable (V : (c : Dev nD) → (b : Ref sig .tc) → Buf (Elt Ideal) ((c : Thread nD τ).loc b))

/-- The printed index maps over the eight grid points: the activation window moves with the output window (batch
    with batch, row tile with row tile) and stays at feature block 0; the matrix and the bias row stay at block
    (0, 0); the output window stays at head block 0 and lane block 0, its batch below 2 and its row tile below 4. -/
theorem idx_facts1 : ∀ t : Fin cfg1.N,
    win1_0.index t (0 : Fin 3) = win1_3.index t (0 : Fin 4)
    ∧ win1_0.index t (1 : Fin 3) = win1_3.index t (2 : Fin 4)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 4) = 0 ∧ win1_3.index t (3 : Fin 4) = 0
    ∧ win1_3.index t (0 : Fin 4) ≤ 1 ∧ win1_3.index t (2 : Fin 4) ≤ 3 :=
  (by decide +kernel : ∀ t : Fin grid1.N, _)

/-- Every (batch, row tile) pair is some point's output block. -/
theorem idx_onto1 : ∀ (q0 : Fin 2) (q2 : Fin 4), ∃ t : Fin cfg1.N, win1_3.index t = ![q0.val, 0, q2.val, 0] :=
  (by decide +kernel : ∀ (q0 : Fin 2) (q2 : Fin 4), ∃ t : Fin grid1.N, win1_3.index t = ![q0.val, 0, q2.val, 0])

/-- What point t writes back is block t of the linear layer of the three operand arrays as the region finds them. -/
theorem flushed1_eq (c : Dev nD) (t : Fin cfg1.N) :
    (dat1 (F := Ideal) V c).flushed 3 t
      = ((cfg1.win 3).blk t).view.read (Elt Ideal) (Cert.MHA.proj (V c main_arg1) (V c main_v7) (V c main_v11)) := by
  show (cfg1.win 3).cut (grid1.coords t) ((dat1 (F := Ideal) V c).after 3 t) = _
  rw [after1_3]
  unfold out1_3
  rw [View.canon_unit_zero zeros4]
  simp only [View.ld_unit_zero (S := S1x512x1024) zeros3, View.ld_unit_zero (S := S1024x1024) zeros2,
    View.ld_unit_zero (S := S1x1024) zeros2]
  obtain ⟨e0, e1, e2, e3, e4, e5, e6, e7, e8, e9, e10⟩ := idx_facts1 t
  funext j
  have hj0 : (j 0).val < 1 := (j 0).isLt
  have hj1 : (j 1).val < 16 := (j 1).isLt
  have hj2 : (j 2).val < 512 := (j 2).isLt
  have hj3 : (j 3).val < 64 := (j 3).isLt
  show k1_pay1 (iblk1 V c 0 t) (iblk1 V c 1 t) (iblk1 V c 2 t) j
    = Cert.MHA.proj (V c main_arg1) (V c main_v7) (V c main_v11) (((cfg1.win 3).blk t).view.emb j)
  refine pay1_eq_proj (V c main_arg1) (V c main_v7) (V c main_v11) (iblk1 V c 0 t) (iblk1 V c 1 t) (iblk1 V c 2 t)
    j (((cfg1.win 3).blk t).view.emb j) ?_ ?_ ?_ ?_ ?_
  · show win1_3.index t (1 : Fin 4) * 16 + 1 * (j 1).val = (j 1).val
    omega
  · show win1_3.index t (3 : Fin 4) * 64 + 1 * (j 3).val = (j 3).val
    omega
  · intro e
    show V c main_arg1 (((cfg1.win 0).blk t).view.emb (ix3 (0 : Fin 1) (j 2) e))
      = V c main_arg1 (ix3 ((((cfg1.win 3).blk t).view.emb j) 0) ((((cfg1.win 3).blk t).view.emb j) 2) e)
    refine congrArg (V c main_arg1) (funext fun a => Fin.ext ?_)
    match a with
    | ⟨0, _⟩ =>
      show win1_0.index t (0 : Fin 3) * 1 + 1 * 0 = win1_3.index t (0 : Fin 4) * 1 + 1 * (j 0).val
      omega
    | ⟨1, _⟩ =>
      show win1_0.index t (1 : Fin 3) * 512 + 1 * (j 2).val = win1_3.index t (2 : Fin 4) * 512 + 1 * (j 2).val
      omega
    | ⟨2, _⟩ =>
      show win1_0.index t (2 : Fin 3) * 1024 + 1 * e.val = e.val
      omega
  · intro e f
    show V c main_v7 (((cfg1.win 1).blk t).view.emb (ix2 e f)) = V c main_v7 (ix2 e f)
    refine congrArg (V c main_v7) (funext fun a => Fin.ext ?_)
    match a with
    | ⟨0, _⟩ =>
      show win1_1.index t (0 : Fin 2) * 1024 + 1 * e.val = e.val
      omega
    | ⟨1, _⟩ =>
      show win1_1.index t (1 : Fin 2) * 1024 + 1 * f.val = f.val
      omega
  · intro f
    show V c main_v11 (((cfg1.win 2).blk t).view.emb (ix2 (0 : Fin 1) f)) = V c main_v11 (ix2 (0 : Fin 1) f)
    refine congrArg (V c main_v11) (funext fun a => Fin.ext ?_)
    match a with
    | ⟨0, _⟩ =>
      show win1_2.index t (0 : Fin 2) * 1 + 1 * 0 = 0
      omega
    | ⟨1, _⟩ =>
      show win1_2.index t (1 : Fin 2) * 1024 + 1 * f.val = f.val
      omega

/-- An index of the output array is in point t's block iff each coordinate is in the block's range on its axis. -/
theorem mem_blk1 (t : Fin cfg1.N) (i : S2x16x2048x64.Idx) :
    i ∈ ((cfg1.win 3).blk t).view.set ↔ ∀ a : Fin 4, win1_3.index t a * S1x16x512x64.size a ≤ (i a).val
      ∧ (i a).val < win1_3.index t a * S1x16x512x64.size a + S1x16x512x64.size a := by
  show i ∈ ((View.whole main_v12).slice (win1_3.rect t)).set ↔ _
  rw [View.set_slice_whole, Rect.mem_set_unit]
  exact Iff.rfl

/-- Every index of the output array is in some point's block: batch (i 0), row tile (i 2) / 512. -/
theorem covered1 (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto1 ⟨(i 0).val, hi0⟩ ⟨(i 2).val / 512, by omega⟩
  have q0 : win1_3.index t (0 : Fin 4) = (i 0).val := congrFun ht 0
  have q1 : win1_3.index t (1 : Fin 4) = 0 := congrFun ht 1
  have q2 : win1_3.index t (2 : Fin 4) = (i 2).val / 512 := congrFun ht 2
  have q3 : win1_3.index t (3 : Fin 4) = 0 := congrFun ht 3
  refine ⟨t, flush1_3 t, ?_⟩
  rw [mem_blk1]
  intro a
  match a with
  | ⟨0, _⟩ =>
    show win1_3.index t (0 : Fin 4) * 1 ≤ (i 0).val ∧ (i 0).val < win1_3.index t (0 : Fin 4) * 1 + 1
    omega
  | ⟨1, _⟩ =>
    show win1_3.index t (1 : Fin 4) * 16 ≤ (i 1).val ∧ (i 1).val < win1_3.index t (1 : Fin 4) * 16 + 16
    omega
  | ⟨2, _⟩ =>
    show win1_3.index t (2 : Fin 4) * 512 ≤ (i 2).val ∧ (i 2).val < win1_3.index t (2 : Fin 4) * 512 + 512
    omega
  | ⟨3, _⟩ =>
    show win1_3.index t (3 : Fin 4) * 64 ≤ (i 3).val ∧ (i 3).val < win1_3.index t (3 : Fin 4) * 64 + 64
    omega

/-- The array after the region's last point: the linear layer of the three operand arrays as the region finds them. -/
theorem final1 (c : Dev nD) :
    (dat1 (F := Ideal) V c).arrAt 3 cfg1.N = Cert.MHA.proj (V c main_arg1) (V c main_v7) (V c main_v11) :=
  (dat1 (F := Ideal) V c).arrAt_eq_of_cover 3 (Cert.MHA.proj (V c main_arg1) (V c main_v7) (V c main_v11))
    (fun t _ => flushed1_eq V c t) covered1

end Cert.KernelIdeal.ProjValue

end
-- ==== Proof.ProjValue2.lean ====
/-
  Input projection 2: the array its grid leaves is the linear layer of its three operands.

  The grid is 2 batches by 4 row tiles. Point (n, q) reads rows 512 q … 512 q + 511 of batch n of the activations,
  the whole matrix and the whole bias row, and writes back the [1, 16, 512, 64] block at batch n, rows 512 q … of
  the head-major output. The stored block is the linear layer read through that block; the eight blocks fill the
  [2, 16, 2048, 64] array, so the array after the last point is the linear layer everywhere.
-/
import proofs.«157763_j27376121545288_2_alg».proof.Proof.Gen.KernelIdeal.Frame
import proofs.«157763_j27376121545288_2_alg».proof.Proof.Spec
import proofs.«157763_j27376121545288_2_alg».proof.Proof.ProjBody
import Idealize.ShloMosaic.Lib.Pipeline.Value

noncomputable section

open Idealize.ShloMosaic Idealize.ShloMosaic.TcCoe Idealize.SL.Sem
open Idealize.ShloMosaic.Pipeline (Dat)

namespace Cert.KernelIdeal.ProjValue

open Cert.KernelIdeal Cert.KernelIdeal.Gen Cert.KernelIdeal.ProjBody
open Idealize.ShloMosaic.ValueIdx

variable (V : (c : Dev nD) → (b : Ref sig .tc) → Buf (Elt Ideal) ((c : Thread nD τ).loc b))

/-- The printed index maps over the eight grid points: the activation window moves with the output window (batch
    with batch, row tile with row tile) and stays at feature block 0; the matrix and the bias row stay at block
    (0, 0); the output window stays at head block 0 and lane block 0, its batch below 2 and its row tile below 4. -/
theorem idx_facts2 : ∀ t : Fin cfg2.N,
    win2_0.index t (0 : Fin 3) = win2_3.index t (0 : Fin 4)
    ∧ win2_0.index t (1 : Fin 3) = win2_3.index t (2 : Fin 4)
    ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 4) = 0 ∧ win2_3.index t (3 : Fin 4) = 0
    ∧ win2_3.index t (0 : Fin 4) ≤ 1 ∧ win2_3.index t (2 : Fin 4) ≤ 3 :=
  (by decide +kernel : ∀ t : Fin grid2.N, _)

/-- Every (batch, row tile) pair is some point's output block. -/
theorem idx_onto2 : ∀ (q0 : Fin 2) (q2 : Fin 4), ∃ t : Fin cfg2.N, win2_3.index t = ![q0.val, 0, q2.val, 0] :=
  (by decide +kernel : ∀ (q0 : Fin 2) (q2 : Fin 4), ∃ t : Fin grid2.N, win2_3.index t = ![q0.val, 0, q2.val, 0])

/-- What point t writes back is block t of the linear layer of the three operand arrays as the region finds them. -/
theorem flushed2_eq (c : Dev nD) (t : Fin cfg2.N) :
    (dat2 (F := Ideal) V c).flushed 3 t
      = ((cfg2.win 3).blk t).view.read (Elt Ideal) (Cert.MHA.proj (V c main_arg2) (V c main_v8) (V c main_v13)) := by
  show (cfg2.win 3).cut (grid2.coords t) ((dat2 (F := Ideal) V c).after 3 t) = _
  rw [after2_3]
  unfold out2_3
  rw [View.canon_unit_zero zeros4]
  simp only [View.ld_unit_zero (S := S1x512x1024) zeros3, View.ld_unit_zero (S := S1024x1024) zeros2,
    View.ld_unit_zero (S := S1x1024) zeros2]
  obtain ⟨e0, e1, e2, e3, e4, e5, e6, e7, e8, e9, e10⟩ := idx_facts2 t
  funext j
  have hj0 : (j 0).val < 1 := (j 0).isLt
  have hj1 : (j 1).val < 16 := (j 1).isLt
  have hj2 : (j 2).val < 512 := (j 2).isLt
  have hj3 : (j 3).val < 64 := (j 3).isLt
  show k2_pay1 (iblk2 V c 0 t) (iblk2 V c 1 t) (iblk2 V c 2 t) j
    = Cert.MHA.proj (V c main_arg2) (V c main_v8) (V c main_v13) (((cfg2.win 3).blk t).view.emb j)
  refine pay2_eq_proj (V c main_arg2) (V c main_v8) (V c main_v13) (iblk2 V c 0 t) (iblk2 V c 1 t) (iblk2 V c 2 t)
    j (((cfg2.win 3).blk t).view.emb j) ?_ ?_ ?_ ?_ ?_
  · show win2_3.index t (1 : Fin 4) * 16 + 1 * (j 1).val = (j 1).val
    omega
  · show win2_3.index t (3 : Fin 4) * 64 + 1 * (j 3).val = (j 3).val
    omega
  · intro e
    show V c main_arg2 (((cfg2.win 0).blk t).view.emb (ix3 (0 : Fin 1) (j 2) e))
      = V c main_arg2 (ix3 ((((cfg2.win 3).blk t).view.emb j) 0) ((((cfg2.win 3).blk t).view.emb j) 2) e)
    refine congrArg (V c main_arg2) (funext fun a => Fin.ext ?_)
    match a with
    | ⟨0, _⟩ =>
      show win2_0.index t (0 : Fin 3) * 1 + 1 * 0 = win2_3.index t (0 : Fin 4) * 1 + 1 * (j 0).val
      omega
    | ⟨1, _⟩ =>
      show win2_0.index t (1 : Fin 3) * 512 + 1 * (j 2).val = win2_3.index t (2 : Fin 4) * 512 + 1 * (j 2).val
      omega
    | ⟨2, _⟩ =>
      show win2_0.index t (2 : Fin 3) * 1024 + 1 * e.val = e.val
      omega
  · intro e f
    show V c main_v8 (((cfg2.win 1).blk t).view.emb (ix2 e f)) = V c main_v8 (ix2 e f)
    refine congrArg (V c main_v8) (funext fun a => Fin.ext ?_)
    match a with
    | ⟨0, _⟩ =>
      show win2_1.index t (0 : Fin 2) * 1024 + 1 * e.val = e.val
      omega
    | ⟨1, _⟩ =>
      show win2_1.index t (1 : Fin 2) * 1024 + 1 * f.val = f.val
      omega
  · intro f
    show V c main_v13 (((cfg2.win 2).blk t).view.emb (ix2 (0 : Fin 1) f)) = V c main_v13 (ix2 (0 : Fin 1) f)
    refine congrArg (V c main_v13) (funext fun a => Fin.ext ?_)
    match a with
    | ⟨0, _⟩ =>
      show win2_2.index t (0 : Fin 2) * 1 + 1 * 0 = 0
      omega
    | ⟨1, _⟩ =>
      show win2_2.index t (1 : Fin 2) * 1024 + 1 * f.val = f.val
      omega

/-- An index of the output array is in point t's block iff each coordinate is in the block's range on its axis. -/
theorem mem_blk2 (t : Fin cfg2.N) (i : S2x16x2048x64.Idx) :
    i ∈ ((cfg2.win 3).blk t).view.set ↔ ∀ a : Fin 4, win2_3.index t a * S1x16x512x64.size a ≤ (i a).val
      ∧ (i a).val < win2_3.index t a * S1x16x512x64.size a + S1x16x512x64.size a := by
  show i ∈ ((View.whole main_v14).slice (win2_3.rect t)).set ↔ _
  rw [View.set_slice_whole, Rect.mem_set_unit]
  exact Iff.rfl

/-- Every index of the output array is in some point's block: batch (i 0), row tile (i 2) / 512. -/
theorem covered2 (i : S2x16x2048x64.Idx) :
    ∃ t : Fin cfg2.N, (cfg2.win 3).flush t = true ∧ i ∈ ((cfg2.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto2 ⟨(i 0).val, hi0⟩ ⟨(i 2).val / 512, by omega⟩
  have q0 : win2_3.index t (0 : Fin 4) = (i 0).val := congrFun ht 0
  have q1 : win2_3.index t (1 : Fin 4) = 0 := congrFun ht 1
  have q2 : win2_3.index t (2 : Fin 4) = (i 2).val / 512 := congrFun ht 2
  have q3 : win2_3.index t (3 : Fin 4) = 0 := congrFun ht 3
  refine ⟨t, flush2_3 t, ?_⟩
  rw [mem_blk2]
  intro a
  match a with
  | ⟨0, _⟩ =>
    show win2_3.index t (0 : Fin 4) * 1 ≤ (i 0).val ∧ (i 0).val < win2_3.index t (0 : Fin 4) * 1 + 1
    omega
  | ⟨1, _⟩ =>
    show win2_3.index t (1 : Fin 4) * 16 ≤ (i 1).val ∧ (i 1).val < win2_3.index t (1 : Fin 4) * 16 + 16
    omega
  | ⟨2, _⟩ =>
    show win2_3.index t (2 : Fin 4) * 512 ≤ (i 2).val ∧ (i 2).val < win2_3.index t (2 : Fin 4) * 512 + 512
    omega
  | ⟨3, _⟩ =>
    show win2_3.index t (3 : Fin 4) * 64 ≤ (i 3).val ∧ (i 3).val < win2_3.index t (3 : Fin 4) * 64 + 64
    omega

/-- The array after the region's last point: the linear layer of the three operand arrays as the region finds them. -/
theorem final2 (c : Dev nD) :
    (dat2 (F := Ideal) V c).arrAt 3 cfg2.N = Cert.MHA.proj (V c main_arg2) (V c main_v8) (V c main_v13) :=
  (dat2 (F := Ideal) V c).arrAt_eq_of_cover 3 (Cert.MHA.proj (V c main_arg2) (V c main_v8) (V c main_v13))
    (fun t _ => flushed2_eq V c t) covered2

end Cert.KernelIdeal.ProjValue

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.AttnBody.lean ====
/-
  One tile of attention, read entry by entry on the extended reals.

  The tile's inputs are a block of 512 query rows and the whole 2048 key rows and 2048 value rows of one batch
  and head, each row 64 lanes wide, held as [1, 1, n, 64] blocks. The score of query row r against key row t is
  the sum over the 64 lanes of the products, times 1/8. Each score row is shifted by its maximum (the fold of max
  from minus infinity over the 2048 key rows), exponentiated, and divided by the sum of its 2048 exponentials; the
  stored entry (r, d) is the sum over t of that weight times lane d of value row t.

  The stages are named one by one (the block as a matrix of rows, the scores, the row maximum, the shifted
  exponentials, the row sum, the weights, the mixing product), the tile's stored value is their composition, and
  each stage is read at explicit coordinates: a matrix product as a sum over its contracted axis, a row reduction as a
  fold or sum over the key positions, a per-row statistic spread over its row as that row's entry.
-/
import proofs.«157763_j27376121545288_2_alg».proof.Proof.Gen.KernelIdeal.Skeleton
import proofs.«157763_j27376121545288_2_alg».proof.Proof.LibContract
import proofs.«157763_j27376121545288_2_alg».proof.Proof.LibUnitAxis
import Idealize.ShloMosaic.PureOps.Ideal.Laws
import Idealize.ShloMosaic.Lib.ValueLayout

noncomputable section
open scoped BigOperators

namespace Cert.KernelIdeal.AttnBody
open Idealize.ShloMosaic Idealize.ShloMosaic.ValueIdx Cert.KernelIdeal Cert.KernelIdeal.Gen

/-- A [1,1,n,64] block viewed as the [n,64] matrix of its rows. -/
def rows512 (x : Vec Ideal S1x1x512x64 .bf16) : FVec Ideal S512x64 .bf16 :=
  shapeCast S512x64 x shapeCasts_S1x1x512x64_S512x64
/-- The same for a 2048-row block. -/
def rows2048 (x : Vec Ideal S1x1x2048x64 .bf16) : FVec Ideal S2048x64 .bf16 :=
  shapeCast S2048x64 x shapeCasts_S1x1x2048x64_S2048x64

/-- Scores: queries against keys over the 64 lanes, times 1/8. -/
def scores (q : FVec Ideal S512x64 .bf16) (k : FVec Ideal S2048x64 .bf16) : FVec Ideal S512x2048 .f32 :=
  mulf (matmul dot_S512x64_S2048x64_S512x2048_1_1_0_0_n_n none q k (constant S512x2048 .f32 0x00000000#32))
    (broadcast S512x2048 (Scalar.ofBits .f32 0x3E000000#32))

/-- Each row's maximum. -/
def rowTop (s : FVec Ideal S512x2048 .f32) : FVec Ideal S512 .f32 :=
  multiReduction .maximumf [1] S512 s 0xFF800000#32 reduces_S512x2048_S512 (.inl rfl) rfl

/-- A per-row statistic spread back over its row. -/
def spread (v : FVec Ideal S512 .f32) : FVec Ideal S512x2048 .f32 :=
  broadcastTo S512x2048 (shapeCast S512x1 v shapeCasts_S512_S512x1) broadcasts_S512x1_S512x2048

/-- Scores shifted by their row's maximum and exponentiated. -/
def shifted (s : FVec Ideal S512x2048 .f32) : FVec Ideal S512x2048 .f32 :=
  exp (subf s (spread (rowTop s)))

/-- Each row's sum. -/
def rowSum (e : FVec Ideal S512x2048 .f32) : FVec Ideal S512 .f32 :=
  multiReduction .add [1] S512 e 0x00000000#32 reduces_S512x2048_S512 (.inl rfl) rfl

/-- Each exponential divided by its row's sum. -/
def weights (e : FVec Ideal S512x2048 .f32) : FVec Ideal S512x2048 .bf16 :=
  truncf .bf16 (divf e (spread (rowSum e))) bitsLt_bf16_f32

/-- The value rows mixed by the weights. -/
def mix (p : FVec Ideal S512x2048 .bf16) (v : FVec Ideal S2048x64 .bf16) : FVec Ideal S512x64 .bf16 :=
  truncf .bf16 (matmul dot_S512x2048_S2048x64_S512x64_1_0_0_1_n_n none p v (constant S512x64 .f32 0x00000000#32)) bitsLt_bf16_f32

/-- The tile's stored value is the composition of the stages. -/
theorem pay_eq (x0 : Vec Ideal S1x1x512x64 .bf16) (x1 x2 : Vec Ideal S1x1x2048x64 .bf16) :
    k3_pay1 (F := Ideal) x0 x1 x2
      = shapeCast S1x1x512x64 (mix (weights (shifted (scores (rows512 x0) (rows2048 x1)))) (rows2048 x2)) shapeCasts_S512x64_S1x1x512x64 := rfl

/-! ## Each stage read at an index -/

theorem rows512_apply (x : Vec Ideal S1x1x512x64 .bf16) (r : Fin 512) (e : Fin 64) :
    rows512 x (ix2 r e) = x (ix4 (0 : Fin 1) (0 : Fin 1) r e) :=
  shapeCast_apply x _ _ _ (by
    rw [Shape.rowMajor_val_four, Shape.rowMajor_val_two]
    show ((0 * 1 + 0) * 512 + r.val) * 64 + e.val = r.val * 64 + e.val
    omega)

theorem rows2048_apply (x : Vec Ideal S1x1x2048x64 .bf16) (t : Fin 2048) (e : Fin 64) :
    rows2048 x (ix2 t e) = x (ix4 (0 : Fin 1) (0 : Fin 1) t e) :=
  shapeCast_apply x _ _ _ (by
    rw [Shape.rowMajor_val_four, Shape.rowMajor_val_two]
    show ((0 * 1 + 0) * 2048 + t.val) * 64 + e.val = t.val * 64 + e.val
    omega)

theorem block_apply (y : FVec Ideal S512x64 .bf16) (z w : Fin 1) (r : Fin 512) (d : Fin 64) :
    shapeCast S1x1x512x64 y shapeCasts_S512x64_S1x1x512x64 (ix4 z w r d) = y (ix2 r d) :=
  shapeCast_apply y _ _ _ (by
    have hz : z.val = 0 := by omega
    have hw : w.val = 0 := by omega
    rw [Shape.rowMajor_val_four, Shape.rowMajor_val_two]
    show r.val * 64 + d.val = ((z.val * 1 + w.val) * 512 + r.val) * 64 + d.val
    omega)

/-! ### The score product: both operands contract their lane axis -/

theorem scores_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem scores_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- Lane e of query row r … -/
theorem scores_lhs (r : Fin 512) (t : Fin 2048) (e : Fin 64) :
    dot_S512x64_S2048x64_S512x2048_1_1_0_0_n_n.lhsIdx (ix2 r t) ((contrEquiv1 dot_S512x64_S2048x64_S512x2048_1_1_0_0_n_n 64 rfl rfl).symm e) = ix2 r e := by
  funext a; apply Fin.ext
  match a with
  | ⟨0, _⟩ => exact scores_lhs0 _ _
  | ⟨1, _⟩ => exact (dot_S512x64_S2048x64_S512x2048_1_1_0_0_n_n.lhsIdx_val_of_single rfl _ _).trans (contrEquiv1_symm_val dot_S512x64_S2048x64_S512x2048_1_1_0_0_n_n 64 rfl rfl e)
/-- … against lane e of key row t. -/
theorem scores_rhs (r : Fin 512) (t : Fin 2048) (e : Fin 64) :
    dot_S512x64_S2048x64_S512x2048_1_1_0_0_n_n.rhsIdx (ix2 r t) ((contrEquiv1 dot_S512x64_S2048x64_S512x2048_1_1_0_0_n_n 64 rfl rfl).symm e) = ix2 t e := by
  funext a; apply Fin.ext
  match a with
  | ⟨0, _⟩ => exact scores_rhs0 _ _
  | ⟨1, _⟩ => exact (dot_S512x64_S2048x64_S512x2048_1_1_0_0_n_n.rhsIdx_val_of_single rfl _ _).trans (contrEquiv1_symm_val dot_S512x64_S2048x64_S512x2048_1_1_0_0_n_n 64 rfl rfl e)

theorem scores_apply (q : FVec Ideal S512x64 .bf16) (k : FVec Ideal S2048x64 .bf16) (r : Fin 512) (t : Fin 2048) :
    scores q k (ix2 r t) = (∑ e : Fin 64, q (ix2 r e) * k (ix2 t e)) * Ideal.ofBits .f32 0x3E000000#32 := by
  unfold scores
  refine (mulf_apply _ _ _).trans ?_
  refine congrArg (· * Ideal.ofBits .f32 0x3E000000#32) ?_
  exact Cert.Bridge.LibContract.matmul_zero_apply dot_S512x64_S2048x64_S512x2048_1_1_0_0_n_n none 64 rfl rfl q k (ix2 r t)
    (fun e => ix2 r e) (fun e => ix2 t e) (scores_lhs r t) (scores_rhs r t)

/-! ### Row statistics: the reduced axis put back -/

/-- Row r with key position t put back is (r, t). -/
theorem lift_row (h : S512x2048.Reduces [1] S512) (r : Fin 512) (t : Fin 2048) :
    h.lift (ix1 r) t = ix2 r t := by
  funext c; apply Fin.ext
  fin_cases c <;> rfl

theorem rowTop_apply (s : FVec Ideal S512x2048 .f32) (r : Fin 512) :
    rowTop s (ix1 r)
      = (Finset.univ : Finset (Fin 2048)).fold max (Ideal.ofBits .f32 0xFF800000#32) (fun t => s (ix2 r t)) := by
  unfold rowTop
  refine (Ideal.multiReduction_maximumf_single s _ reduces_S512x2048_S512 _ _ (ix1 r)).trans ?_
  have hf : (s ∘ reduces_S512x2048_S512.lift (ix1 r)) = fun t : Fin 2048 => s (ix2 r t) :=
    funext fun t => congrArg s (lift_row _ r t)
  exact congrArg (fun f => Finset.fold max (Ideal.ofBits .f32 0xFF800000#32) f (Finset.univ : Finset (Fin 2048))) hf

theorem rowSum_apply (e : FVec Ideal S512x2048 .f32) (r : Fin 512) :
    rowSum e (ix1 r) = ∑ t : Fin 2048, e (ix2 r t) := by
  unfold rowSum
  refine (Ideal.multiReduction_add_single e _ reduces_S512x2048_S512 _ _ (ix1 r)).trans ?_
  exact Finset.sum_congr rfl fun t _ => congrArg e (lift_row _ r t)

theorem spread_apply (v : FVec Ideal S512 .f32) (r : Fin 512) (t : Fin 2048) : spread v (ix2 r t) = v (ix1 r) :=
  (Cert.Lib.UnitAxis.broadcastTo_a1_ab_apply _ _ r t).trans (Cert.Lib.UnitAxis.shapeCast_a_a1_apply v _ r 0)

theorem shifted_apply (s : FVec Ideal S512x2048 .f32) (r : Fin 512) (t : Fin 2048) :
    shifted s (ix2 r t) = Ideal.exp (s (ix2 r t) - rowTop s (ix1 r)) := by
  show Ideal.exp (s (ix2 r t) - spread (rowTop s) (ix2 r t)) = _
  rw [spread_apply]

theorem weights_apply (e : FVec Ideal S512x2048 .f32) (r : Fin 512) (t : Fin 2048) :
    weights e (ix2 r t) = Ideal.div (e (ix2 r t)) (rowSum e (ix1 r)) := by
  show Ideal.div (e (ix2 r t)) (spread (rowSum e) (ix2 r t)) = _
  rw [spread_apply]

/-! ### The mixing product: the weights' key axis against the value rows -/

theorem mix_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem mix_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

theorem mix_lhs (r : Fin 512) (d : Fin 64) (t : Fin 2048) :
    dot_S512x2048_S2048x64_S512x64_1_0_0_1_n_n.lhsIdx (ix2 r d) ((contrEquiv1 dot_S512x2048_S2048x64_S512x64_1_0_0_1_n_n 2048 rfl rfl).symm t) = ix2 r t := by
  funext a; apply Fin.ext
  match a with
  | ⟨0, _⟩ => exact mix_lhs0 _ _
  | ⟨1, _⟩ => exact (dot_S512x2048_S2048x64_S512x64_1_0_0_1_n_n.lhsIdx_val_of_single rfl _ _).trans (contrEquiv1_symm_val dot_S512x2048_S2048x64_S512x64_1_0_0_1_n_n 2048 rfl rfl t)
theorem mix_rhs (r : Fin 512) (d : Fin 64) (t : Fin 2048) :
    dot_S512x2048_S2048x64_S512x64_1_0_0_1_n_n.rhsIdx (ix2 r d) ((contrEquiv1 dot_S512x2048_S2048x64_S512x64_1_0_0_1_n_n 2048 rfl rfl).symm t) = ix2 t d := by
  funext a; apply Fin.ext
  match a with
  | ⟨0, _⟩ => exact (dot_S512x2048_S2048x64_S512x64_1_0_0_1_n_n.rhsIdx_val_of_single rfl _ _).trans (contrEquiv1_symm_val dot_S512x2048_S2048x64_S512x64_1_0_0_1_n_n 2048 rfl rfl t)
  | ⟨1, _⟩ => exact mix_rhs1 _ _

theorem mix_apply (p : FVec Ideal S512x2048 .bf16) (v : FVec Ideal S2048x64 .bf16) (r : Fin 512) (d : Fin 64) :
    mix p v (ix2 r d) = ∑ t : Fin 2048, p (ix2 r t) * v (ix2 t d) := by
  show (matmul dot_S512x2048_S2048x64_S512x64_1_0_0_1_n_n none p v (constant S512x64 .f32 0x00000000#32) : FVec Ideal S512x64 .f32) (ix2 r d) = _
  exact Cert.Bridge.LibContract.matmul_zero_apply dot_S512x2048_S2048x64_S512x64_1_0_0_1_n_n none 2048 rfl rfl p v (ix2 r d)
    (fun t => ix2 r t) (fun t => ix2 t d) (mix_lhs r d) (mix_rhs r d)

/-! ## The payload at an index

Entry (r, d) of the stored block: the value rows mixed by row r's normalised, shifted, exponentiated scores. -/

/-- The score of the block's query row r against key row t. -/
def blockScore (x0 : Vec Ideal S1x1x512x64 .bf16) (x1 : Vec Ideal S1x1x2048x64 .bf16) (r : Fin 512) (t : Fin 2048) : EReal :=
  (∑ e : Fin 64, x0 (ix4 (0 : Fin 1) (0 : Fin 1) r e) * x1 (ix4 (0 : Fin 1) (0 : Fin 1) t e)) * Ideal.ofBits .f32 0x3E000000#32

/-- That score shifted by its row's maximum and exponentiated. -/
def blockExp (x0 : Vec Ideal S1x1x512x64 .bf16) (x1 : Vec Ideal S1x1x2048x64 .bf16) (r : Fin 512) (t : Fin 2048) : EReal :=
  Ideal.exp (blockScore x0 x1 r t
    - (Finset.univ : Finset (Fin 2048)).fold max (Ideal.ofBits .f32 0xFF800000#32) (blockScore x0 x1 r))

theorem blockScore_eq (x0 : Vec Ideal S1x1x512x64 .bf16) (x1 : Vec Ideal S1x1x2048x64 .bf16) (r : Fin 512) (t : Fin 2048) :
    scores (rows512 x0) (rows2048 x1) (ix2 r t) = blockScore x0 x1 r t := by
  rw [scores_apply]
  unfold blockScore
  refine congrArg (· * Ideal.ofBits .f32 0x3E000000#32) ?_
  exact Finset.sum_congr rfl fun e _ => by rw [rows512_apply, rows2048_apply]

theorem blockExp_eq (x0 : Vec Ideal S1x1x512x64 .bf16) (x1 : Vec Ideal S1x1x2048x64 .bf16) (r : Fin 512) (t : Fin 2048) :
    shifted (scores (rows512 x0) (rows2048 x1)) (ix2 r t) = blockExp x0 x1 r t := by
  rw [shifted_apply, rowTop_apply, blockScore_eq]
  unfold blockExp
  have hf : (fun t' : Fin 2048 => scores (rows512 x0) (rows2048 x1) (ix2 r t')) = blockScore x0 x1 r :=
    funext fun t' => blockScore_eq x0 x1 r t'
  rw [hf]

theorem pay_apply (x0 : Vec Ideal S1x1x512x64 .bf16) (x1 x2 : Vec Ideal S1x1x2048x64 .bf16)
    (z w : Fin 1) (r : Fin 512) (d : Fin 64) :
    k3_pay1 (F := Ideal) x0 x1 x2 (ix4 z w r d)
      = ∑ t : Fin 2048, Ideal.div (blockExp x0 x1 r t) (∑ t' : Fin 2048, blockExp x0 x1 r t')
          * x2 (ix4 (0 : Fin 1) (0 : Fin 1) t d) := by
  rw [pay_eq, block_apply, mix_apply]
  refine Finset.sum_congr rfl fun t _ => ?_
  rw [weights_apply, rowSum_apply, blockExp_eq, rows2048_apply]
  have hs : (∑ t' : Fin 2048, shifted (scores (rows512 x0) (rows2048 x1)) (ix2 r t')) = ∑ t' : Fin 2048, blockExp x0 x1 r t' :=
    Finset.sum_congr rfl fun t' _ => blockExp_eq x0 x1 r t'
  rw [hs]

end Cert.KernelIdeal.AttnBody
end
-- ==== Proof.AttnValue.lean ====
/-
  The attention region's output array after the run is the attention of the three arrays the region reads.

  The grid is (batch 2, head 16, query tile 4). At a point the query window holds rows tile*512 … tile*512 + 511
  of the queries of that batch and head; the key and value windows hold all 2048 rows of that batch and head; the
  output window's block is the same 512 rows of the output. So what a point writes back — the tile's stored value,
  entry (r, d) the value rows mixed by the normalised exponentials of query row r's scores — is the block of the
  whole-array attention at that point, and the 128 blocks tile the output array, so every index is written.
-/
import proofs.«157763_j27376121545288_2_alg».proof.Proof.Gen.KernelIdeal.Frame
import proofs.«157763_j27376121545288_2_alg».proof.Proof.Spec
import proofs.«157763_j27376121545288_2_alg».proof.Proof.AttnBody
import Idealize.ShloMosaic.Lib.Pipeline.Value

noncomputable section
open scoped BigOperators
open Idealize.ShloMosaic Idealize.ShloMosaic.TcCoe Idealize.SL.Sem
open Idealize.ShloMosaic.Pipeline (Dat)

namespace Cert.KernelIdeal.AttnValue
open Cert.KernelIdeal Cert.KernelIdeal.Gen Idealize.ShloMosaic.ValueIdx

/-! ## A tile against the whole arrays -/

/-- If the tile's query block is rows b*512 … of batch n, head h of q, and its key and value blocks are all the
    rows of batch n, head h of k and v, then its stored value at y is the attention of q, k, v at the array index
    i that y sits at. -/
theorem tile_eq (q k v : Cert.MHA.Heads) (x0 : Vec Ideal S1x1x512x64 .bf16) (x1 x2 : Vec Ideal S1x1x2048x64 .bf16)
    (n : Fin 2) (h : Fin 16) (b : ℕ) (hb : b < 4)
    (h0 : ∀ (r : Fin 512) (e : Fin 64),
      x0 (ix4 (0 : Fin 1) (0 : Fin 1) r e) = q (ix4 n h (⟨b * 512 + r.val, by omega⟩ : Fin 2048) e))
    (h1 : ∀ (t : Fin 2048) (e : Fin 64), x1 (ix4 (0 : Fin 1) (0 : Fin 1) t e) = k (ix4 n h t e))
    (h2 : ∀ (t : Fin 2048) (e : Fin 64), x2 (ix4 (0 : Fin 1) (0 : Fin 1) t e) = v (ix4 n h t e))
    (y : S1x1x512x64.Idx) (i : S2x16x2048x64.Idx)
    (hi0 : (i 0).val = n.val) (hi1 : (i 1).val = h.val) (hi2 : (i 2).val = b * 512 + (y 2).val)
    (hi3 : (i 3).val = (y 3).val) :
    k3_pay1 (F := Ideal) x0 x1 x2 y = Cert.MHA.attend q k v i := by
  obtain ⟨z, w, r, d, rfl⟩ : ∃ (z w : Fin 1) (r : Fin 512) (d : Fin 64), y = ix4 z w r d :=
    ⟨y 0, y 1, y 2, y 3, eq_ix4 y⟩
  have hi : i = ix4 n h (⟨b * 512 + r.val, by omega⟩ : Fin 2048) d := by
    funext a; apply Fin.ext
    match a with
    | ⟨0, _⟩ => exact hi0
    | ⟨1, _⟩ => exact hi1
    | ⟨2, _⟩ => exact hi2
    | ⟨3, _⟩ => exact hi3
  rw [hi, AttnBody.pay_apply, Cert.MHA.attend_apply]
  have hsc : ∀ t : Fin 2048, AttnBody.blockScore x0 x1 r t
      = Cert.MHA.score q k n h (⟨b * 512 + r.val, by omega⟩ : Fin 2048) t := fun t => by
    unfold AttnBody.blockScore Cert.MHA.score
    simp only [h0, h1]
  have hex : ∀ t : Fin 2048, AttnBody.blockExp x0 x1 r t
      = Cert.MHA.unnorm q k n h (⟨b * 512 + r.val, by omega⟩ : Fin 2048) t := fun t => by
    unfold AttnBody.blockExp Cert.MHA.unnorm Cert.MHA.rowMax
    rw [hsc t, show AttnBody.blockScore x0 x1 r = Cert.MHA.score q k n h (⟨b * 512 + r.val, by omega⟩ : Fin 2048) from funext hsc]
  refine Finset.sum_congr rfl fun t _ => ?_
  unfold Cert.MHA.weight
  rw [h2, hex t, show (∑ t' : Fin 2048, AttnBody.blockExp x0 x1 r t')
      = ∑ t' : Fin 2048, Cert.MHA.unnorm q k n h (⟨b * 512 + r.val, by omega⟩ : Fin 2048) t' from
    Finset.sum_congr rfl fun t' _ => hex t']

/-! ## The region: what each point writes back, and the cover -/

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The index maps, decided over the 128 points: the query window moves with the output window; the key and value
    windows follow it on the batch and head axes and stay at 0 on the row axis; the lane axis is never cut. -/
theorem idx_facts : ∀ t : Fin cfg3.N,
    win3_0.index t (0 : Fin 4) = win3_3.index t (0 : Fin 4) ∧ win3_0.index t (1 : Fin 4) = win3_3.index t (1 : Fin 4)
    ∧ win3_0.index t (2 : Fin 4) = win3_3.index t (2 : Fin 4) ∧ win3_0.index t (3 : Fin 4) = 0
    ∧ win3_1.index t (0 : Fin 4) = win3_3.index t (0 : Fin 4) ∧ win3_1.index t (1 : Fin 4) = win3_3.index t (1 : Fin 4)
    ∧ win3_1.index t (2 : Fin 4) = 0 ∧ win3_1.index t (3 : Fin 4) = 0
    ∧ win3_2.index t (0 : Fin 4) = win3_3.index t (0 : Fin 4) ∧ win3_2.index t (1 : Fin 4) = win3_3.index t (1 : Fin 4)
    ∧ win3_2.index t (2 : Fin 4) = 0 ∧ win3_2.index t (3 : Fin 4) = 0
    ∧ win3_3.index t (0 : Fin 4) ≤ 1 ∧ win3_3.index t (1 : Fin 4) ≤ 15
    ∧ win3_3.index t (2 : Fin 4) ≤ 3 ∧ win3_3.index t (3 : Fin 4) = 0 :=
  (by decide +kernel : ∀ t : Fin grid3.N, _)

/-- Every (batch, head, tile) is some point's output block. -/
theorem idx_onto : ∀ (q0 : Fin 2) (q1 : Fin 16) (q2 : Fin 4), ∃ t : Fin cfg3.N,
    win3_3.index t = ![q0.val, q1.val, q2.val, 0] :=
  (by decide +kernel : ∀ (q0 : Fin 2) (q1 : Fin 16) (q2 : Fin 4), ∃ t : Fin grid3.N,
    win3_3.index t = ![q0.val, q1.val, q2.val, 0])

/-- What point t writes back is block t of the attention of the three arrays as the region finds them. -/
theorem flushed_eq (c : Dev nD) (t : Fin cfg3.N) :
    (dat3 (F := Ideal) V c).flushed 3 t
      = ((cfg3.win 3).blk t).view.read (Elt Ideal) (Cert.MHA.attend (V c main_v10) (V c main_v12) (V c main_v14)) := by
  show (cfg3.win 3).cut (grid3.coords t) ((dat3 (F := Ideal) V c).after 3 t) = _
  rw [after3_3]
  unfold out3_3
  rw [View.canon_unit_zero zero_offsets]
  simp only [View.ld_unit_zero (S := S1x1x512x64) zero_offsets, View.ld_unit_zero (S := S1x1x2048x64) zero_offsets]
  obtain ⟨e00, e01, e02, e03, e10, e11, e12, e13, e20, e21, e22, e23, b0, b1, b2, b3⟩ := idx_facts t
  funext j
  show k3_pay1 (F := Ideal) (iblk3 V c 0 t) (iblk3 V c 1 t) (iblk3 V c 2 t) j
    = Cert.MHA.attend (V c main_v10) (V c main_v12) (V c main_v14) (((cfg3.win 3).blk t).view.emb j)
  have hj0 : (j 0).val < 1 := (j 0).isLt
  have hj1 : (j 1).val < 1 := (j 1).isLt
  have hj2 : (j 2).val < 512 := (j 2).isLt
  have hj3 : (j 3).val < 64 := (j 3).isLt
  refine tile_eq (V c main_v10) (V c main_v12) (V c main_v14) (iblk3 V c 0 t) (iblk3 V c 1 t) (iblk3 V c 2 t)
    ⟨win3_3.index t (0 : Fin 4), by omega⟩ ⟨win3_3.index t (1 : Fin 4), by omega⟩ (win3_3.index t (2 : Fin 4)) (by omega)
    (fun r e => ?_) (fun s e => ?_) (fun s e => ?_) j (((cfg3.win 3).blk t).view.emb j) ?_ ?_ ?_ ?_
  · show V c main_v10 (((cfg3.win 0).blk t).view.emb (ix4 (0 : Fin 1) (0 : Fin 1) r e)) = V c main_v10 _
    refine congrArg (V c main_v10) (funext fun a => Fin.ext ?_)
    have hr : r.val < 512 := r.isLt
    match a with
    | ⟨0, _⟩ => show win3_0.index t (0 : Fin 4) * 1 + 1 * 0 = win3_3.index t (0 : Fin 4); omega
    | ⟨1, _⟩ => show win3_0.index t (1 : Fin 4) * 1 + 1 * 0 = win3_3.index t (1 : Fin 4); omega
    | ⟨2, _⟩ => show win3_0.index t (2 : Fin 4) * 512 + 1 * r.val = win3_3.index t (2 : Fin 4) * 512 + r.val; omega
    | ⟨3, _⟩ => show win3_0.index t (3 : Fin 4) * 64 + 1 * e.val = e.val; omega
  · show V c main_v12 (((cfg3.win 1).blk t).view.emb (ix4 (0 : Fin 1) (0 : Fin 1) s e)) = V c main_v12 _
    refine congrArg (V c main_v12) (funext fun a => Fin.ext ?_)
    match a with
    | ⟨0, _⟩ => show win3_1.index t (0 : Fin 4) * 1 + 1 * 0 = win3_3.index t (0 : Fin 4); omega
    | ⟨1, _⟩ => show win3_1.index t (1 : Fin 4) * 1 + 1 * 0 = win3_3.index t (1 : Fin 4); omega
    | ⟨2, _⟩ => show win3_1.index t (2 : Fin 4) * 2048 + 1 * s.val = s.val; omega
    | ⟨3, _⟩ => show win3_1.index t (3 : Fin 4) * 64 + 1 * e.val = e.val; omega
  · show V c main_v14 (((cfg3.win 2).blk t).view.emb (ix4 (0 : Fin 1) (0 : Fin 1) s e)) = V c main_v14 _
    refine congrArg (V c main_v14) (funext fun a => Fin.ext ?_)
    match a with
    | ⟨0, _⟩ => show win3_2.index t (0 : Fin 4) * 1 + 1 * 0 = win3_3.index t (0 : Fin 4); omega
    | ⟨1, _⟩ => show win3_2.index t (1 : Fin 4) * 1 + 1 * 0 = win3_3.index t (1 : Fin 4); omega
    | ⟨2, _⟩ => show win3_2.index t (2 : Fin 4) * 2048 + 1 * s.val = s.val; omega
    | ⟨3, _⟩ => show win3_2.index t (3 : Fin 4) * 64 + 1 * e.val = e.val; omega
  · show win3_3.index t (0 : Fin 4) * 1 + 1 * (j 0).val = win3_3.index t (0 : Fin 4); omega
  · show win3_3.index t (1 : Fin 4) * 1 + 1 * (j 1).val = win3_3.index t (1 : Fin 4); omega
  · show win3_3.index t (2 : Fin 4) * 512 + 1 * (j 2).val = win3_3.index t (2 : Fin 4) * 512 + (j 2).val; omega
  · show win3_3.index t (3 : Fin 4) * 64 + 1 * (j 3).val = (j 3).val; omega

/-- An index of the output array is in point t's block iff each coordinate is in the block's range on its axis. -/
theorem mem_blk (t : Fin cfg3.N) (i : S2x16x2048x64.Idx) :
    i ∈ ((cfg3.win 3).blk t).view.set ↔ ∀ a : Fin 4, win3_3.index t a * S1x1x512x64.size a ≤ (i a).val
      ∧ (i a).val < win3_3.index t a * S1x1x512x64.size a + S1x1x512x64.size a := by
  show i ∈ ((View.whole main_v15).slice (win3_3.rect t)).set ↔ _
  rw [View.set_slice_whole, Rect.mem_set_unit]
  exact Iff.rfl

/-- Every index of the output array is in some point's block: batch, head, and row / 512 name the point. -/
theorem covered (i : S2x16x2048x64.Idx) :
    ∃ t : Fin cfg3.N, (cfg3.win 3).flush t = true ∧ i ∈ ((cfg3.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win3_3.index t (0 : Fin 4) = (i 0).val := congrFun ht 0
  have q1 : win3_3.index t (1 : Fin 4) = (i 1).val := congrFun ht 1
  have q2 : win3_3.index t (2 : Fin 4) = (i 2).val / 512 := congrFun ht 2
  have q3 : win3_3.index t (3 : Fin 4) = 0 := congrFun ht 3
  refine ⟨t, flush3_3 t, ?_⟩
  rw [mem_blk]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 1 ≤ (i 1).val ∧ (i 1).val < win3_3.index t (1 : Fin 4) * 1 + 1; omega
  | ⟨2, _⟩ => show win3_3.index t (2 : Fin 4) * 512 ≤ (i 2).val ∧ (i 2).val < win3_3.index t (2 : Fin 4) * 512 + 512; omega
  | ⟨3, _⟩ => show win3_3.index t (3 : Fin 4) * 64 ≤ (i 3).val ∧ (i 3).val < win3_3.index t (3 : Fin 4) * 64 + 64; omega

/-- The output array after the run: the attention of the queries, keys and values the region was entered with. -/
theorem final3 (c : Dev nD) :
    (dat3 (F := Ideal) V c).arrAt 3 cfg3.N = Cert.MHA.attend (V c main_v10) (V c main_v12) (V c main_v14) :=
  (dat3 (F := Ideal) V c).arrAt_eq_of_cover 3 (Cert.MHA.attend (V c main_v10) (V c main_v12) (V c main_v14))
    (fun t _ => flushed_eq V c t) covered

end Cert.KernelIdeal.AttnValue
end
-- ==== Proof.OutBody.lean ====
/-
  The output layer's arithmetic at one grid point, read at an index.

  The body takes a head-major block [1, 16, 512, 64] of attention outputs, the whole [1024, 1024] weight
  matrix and the [1, 1024] bias row. It drops the block's unit axis, swaps heads and positions, and merges
  head and lane into one feature axis: entry (r, e) of the merged [512, 1024] matrix is lane e % 64 of head
  e / 64 at position r. The merged matrix is multiplied with the weights into a zero accumulator, the bias
  row is added to every row, and the result is given a leading unit axis. On the extended reals a change
  of float format is the identity, so entry (0, r, f) of what is stored is

      (sum over e of block (0, e / 64, r, e % 64) * weight (e, f)) + bias (0, f).
-/
import proofs.«157763_j27376121545288_2_alg».proof.Proof.Gen.KernelIdeal.Skeleton
import proofs.«157763_j27376121545288_2_alg».proof.Proof.Spec
import proofs.«157763_j27376121545288_2_alg».proof.Proof.LibContract
import Idealize.ShloMosaic.Lib.ValueLayout

noncomputable section

open scoped BigOperators
open Idealize.ShloMosaic Idealize.ShloMosaic.ValueIdx Idealize.SL.Sem

namespace Cert.KernelIdeal.OutBody

open Cert.KernelIdeal Cert.KernelIdeal.Gen

/-- The merged matrix at (r, e): the cast [512, 16, 64] → [512, 1024] keeps row-major positions, so column e
    is head e / 64, lane e % 64; the transpose swaps heads and positions; the first cast drops the unit axis. -/
theorem merged_apply (x0 : Vec Ideal S1x16x512x64 .bf16) (r : Fin 512) (e : Fin 1024) :
    shapeCast S512x1024 (transpose S512x16x64 [1, 0, 2] (shapeCast S16x512x64 x0 shapeCasts_S1x16x512x64_S16x512x64)
        transposes_S16x512x64_p1_0_2_S512x16x64) shapeCasts_S512x16x64_S512x1024 (ix2 r e)
      = x0 (ix4 (0 : Fin 1) (Cert.MHA.headOf e) r (Cert.MHA.laneOf e)) := by
  refine (shapeCast_apply _ shapeCasts_S512x16x64_S512x1024 (ix2 r e)
    (ix3 r (Cert.MHA.headOf e) (Cert.MHA.laneOf e)) ?_).trans ?_
  · rw [Shape.rowMajor_val_three, Shape.rowMajor_val_two]
    show (r.val * 16 + e.val / 64) * 64 + e.val % 64 = r.val * 1024 + e.val
    omega
  refine (transpose_apply [1, 0, 2] _ transposes_S16x512x64_p1_0_2_S512x16x64
    (ix3 r (Cert.MHA.headOf e) (Cert.MHA.laneOf e)) (ix3 (Cert.MHA.headOf e) r (Cert.MHA.laneOf e)) ?_).trans ?_
  · intro b
    match b with
    | ⟨0, _⟩ => rfl
    | ⟨1, _⟩ => rfl
    | ⟨2, _⟩ => rfl
  exact shapeCast_1abc_abc_apply x0 shapeCasts_S1x16x512x64_S16x512x64 (Cert.MHA.headOf e) r (Cert.MHA.laneOf e)

/-- The bias row spread over the 512 rows, at (r, f): the row's entry f. -/
theorem bias_apply (x2 : Vec Ideal S1x1024 .f32) (r : Fin 512) (f : Fin 1024) :
    broadcastTo S512x1024 (shapeCast S1x1024 x2 shapeCasts_S1x1024_S1x1024) broadcasts_S1x1024_S512x1024 (ix2 r f)
      = x2 (ix2 (0 : Fin 1) f) :=
  (broadcastTo_1b_ab_apply _ broadcasts_S1x1024_S512x1024 r f).trans
    (congrFun (shapeCast_self x2 shapeCasts_S1x1024_S1x1024) _)

/-- The product's left operand index at output (r, f) and contraction position q: row r … -/
theorem lhs_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- … and column q. -/
theorem lhs_col (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
/-- The right operand index: row q … -/
theorem rhs_row (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
/-- … and column f. -/
theorem rhs_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The matrix product into the zero accumulator at (r, f): the contraction runs over the left operand's
    columns and the right operand's rows. -/
theorem product_apply (L : FVec Ideal S512x1024 .bf16) (R : FVec Ideal S1024x1024 .bf16) (r : Fin 512) (f : Fin 1024) :
    matmul dot_S512x1024_S1024x1024_S512x1024_1_0_0_1_n_n none L R (constant S512x1024 .f32 0x00000000#32) (ix2 r f)
      = ∑ e : Fin 1024, L (ix2 r e) * R (ix2 e f) :=
  Cert.Bridge.LibContract.matmul_zero_apply dot_S512x1024_S1024x1024_S512x1024_1_0_0_1_n_n none 1024 rfl rfl L R (ix2 r f)
    (fun e => ix2 r e) (fun e => ix2 e f)
    (fun k => funext fun a => Fin.ext (by
      have hk := contrEquiv1_symm_val dot_S512x1024_S1024x1024_S512x1024_1_0_0_1_n_n 1024 rfl rfl k
      match a with
      | ⟨0, _⟩ => exact lhs_row _ _
      | ⟨1, _⟩ => exact (lhs_col _ _).trans hk))
    (fun k => funext fun a => Fin.ext (by
      have hk := contrEquiv1_symm_val dot_S512x1024_S1024x1024_S512x1024_1_0_0_1_n_n 1024 rfl rfl k
      match a with
      | ⟨0, _⟩ => exact (rhs_row _ _).trans hk
      | ⟨1, _⟩ => exact rhs_col _ _))

/-- What the body stores, at (0, r, f): the merged block's row r against column f of the weights, plus the bias. -/
theorem pay4_apply (x0 : Vec Ideal S1x16x512x64 .bf16) (x1 : Vec Ideal S1024x1024 .f32) (x2 : Vec Ideal S1x1024 .f32)
    (z : Fin 1) (r : Fin 512) (f : Fin 1024) :
    k4_pay1 (F := Ideal) x0 x1 x2 (ix3 z r f)
      = (∑ e : Fin 1024, x0 (ix4 (0 : Fin 1) (Cert.MHA.headOf e) r (Cert.MHA.laneOf e)) * x1 (ix2 e f)) + x2 (ix2 (0 : Fin 1) f) := by
  unfold k4_pay1
  refine (shapeCast_ab_1ab_apply _ shapeCasts_S512x1024_S1x512x1024 z r f).trans ?_
  refine (addf_apply _ _ (ix2 r f)).trans ?_
  refine congrArg₂ (· + ·) ((product_apply _ _ r f).trans (Finset.sum_congr rfl fun e _ => ?_)) (bias_apply x2 r f)
  refine congrArg₂ (· * ·) (merged_apply x0 r e) ?_
  exact (truncf_apply _ bitsLt_bf16_f32 (ix2 e f)).trans (congrFun (shapeCast_self x1 shapeCasts_S1024x1024_S1024x1024) _)

end Cert.KernelIdeal.OutBody

end
-- ==== Proof.OutValue.lean ====
/-
  The output layer's region: the array it leaves, as one function of the arrays it finds.

  The grid is 2 x 4: point (n, q) reads batch n's rows 512 q … 512 q + 511 of the head-major attention output
  (all 16 heads, all 64 lanes), the whole weight matrix and the whole bias row, and writes rows
  512 q … 512 q + 511 of batch n of the result. The body's arithmetic at an entry of its block is the
  output layer's sum at the corresponding entry of the array, so every point writes its block of the
  one whole-array function; the eight blocks tile the [2, 2048, 1024] result, so the array ends holding it.
-/
import proofs.«157763_j27376121545288_2_alg».proof.Proof.Gen.KernelIdeal.Frame
import proofs.«157763_j27376121545288_2_alg».proof.Proof.Spec
import proofs.«157763_j27376121545288_2_alg».proof.Proof.OutBody
import Idealize.ShloMosaic.Lib.Pipeline.Value

set_option maxRecDepth 16384

noncomputable section

open scoped BigOperators
open Idealize.ShloMosaic Idealize.ShloMosaic.TcCoe Idealize.SL.Sem
open Idealize.ShloMosaic.ValueIdx
open Idealize.ShloMosaic.Pipeline (Dat)

namespace Cert.KernelIdeal.OutValue

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The index maps, decided over the eight grid points: point t is some (n, q); the result's block index there
    is (n, q, 0), the attention block's is (n, 0, q, 0), and the weights and the bias are whole. -/
theorem index_facts : ∀ t : Fin cfg4.N, ∃ (n : Fin 2) (q : Fin 4),
    win4_3.index t = ![n.val, q.val, 0] ∧ win4_0.index t = ![n.val, 0, q.val, 0]
      ∧ win4_1.index t = ![0, 0] ∧ win4_2.index t = ![0, 0] :=
  (by decide +kernel : ∀ t : Fin grid4.N, _)

/-- Every (n, q) is some grid point's. -/
theorem index_onto : ∀ (n : Fin 2) (q : Fin 4), ∃ t : Fin cfg4.N, win4_3.index t = ![n.val, q.val, 0] :=
  (by decide +kernel : ∀ (n : Fin 2) (q : Fin 4), ∃ t : Fin grid4.N, win4_3.index t = ![n.val, q.val, 0])

/-- Row r of the q-th block of 512 rows. -/
def row (q : Fin 4) (r : Fin 512) : Fin 2048 := ⟨q.val * 512 + r.val, by have := q.isLt; have := r.isLt; omega⟩

/-- One grid point, over variables: if the loaded blocks are the rows s 0, s 1, … of batch n of the attention output,
    the whole weights and the whole bias row, then entry (0, r, f) of what the body stores is the output layer at
    (n, s r, f). -/
theorem point_eq (A : Cert.MHA.Heads) (W : Cert.MHA.Sq) (B : Cert.MHA.Row)
    (x0 : Vec Ideal S1x16x512x64 .bf16) (x1 : Vec Ideal S1024x1024 .f32) (x2 : Vec Ideal S1x1024 .f32)
    (n : Fin 2) (s : Fin 512 → Fin 2048)
    (h0 : ∀ (h : Fin 16) (r : Fin 512) (d : Fin 64), x0 (ix4 (0 : Fin 1) h r d) = A (ix4 n h (s r) d))
    (h1 : ∀ e f : Fin 1024, x1 (ix2 e f) = W (ix2 e f)) (h2 : ∀ f : Fin 1024, x2 (ix2 (0 : Fin 1) f) = B (ix2 (0 : Fin 1) f))
    (z : Fin 1) (r : Fin 512) (f : Fin 1024) :
    k4_pay1 (F := Ideal) x0 x1 x2 (ix3 z r f) = Cert.MHA.outp A W B (ix3 n (s r) f) :=
  ((Cert.KernelIdeal.OutBody.pay4_apply x0 x1 x2 z r f).trans
    (congrArg₂ (· + ·) (Finset.sum_congr rfl fun e _ => congrArg₂ (· * ·) (h0 _ r _) (h1 e f)) (h2 f))).trans
    (Cert.MHA.outp_apply A W B n (s r) f).symm

/-- WHAT POINT t WRITES BACK is block t of the output layer of the arrays as the region finds them. -/
theorem flushed_eq (c : Dev nD) (t : Fin cfg4.N) :
    (dat4 (F := Ideal) V c).flushed 3 t
      = ((cfg4.win 3).blk t).view.read (Elt Ideal) (Cert.MHA.outp (V c main_v15) (V c main_v16) (V c main_v17)) := by
  show (cfg4.win 3).cut (grid4.coords t) ((dat4 (F := Ideal) V c).after 3 t) = _
  rw [after4_3]
  unfold out4_3
  rw [View.canon_unit_zero zero3]
  simp only [View.ld_unit_zero (S := S1x16x512x64) zero4, View.ld_unit_zero (S := S1024x1024) zero2,
    View.ld_unit_zero (S := S1x1024) zero2]
  obtain ⟨n, q, e3, e0, e1, e2⟩ := index_facts t
  have e3_0 : win4_3.index t (0 : Fin 3) = n.val := congrFun e3 0
  have e3_1 : win4_3.index t (1 : Fin 3) = q.val := congrFun e3 1
  have e3_2 : win4_3.index t (2 : Fin 3) = 0 := congrFun e3 2
  have e0_0 : win4_0.index t (0 : Fin 4) = n.val := congrFun e0 0
  have e0_1 : win4_0.index t (1 : Fin 4) = 0 := congrFun e0 1
  have e0_2 : win4_0.index t (2 : Fin 4) = q.val := congrFun e0 2
  have e0_3 : win4_0.index t (3 : Fin 4) = 0 := congrFun e0 3
  have e1_0 : win4_1.index t (0 : Fin 2) = 0 := congrFun e1 0
  have e1_1 : win4_1.index t (1 : Fin 2) = 0 := congrFun e1 1
  have e2_0 : win4_2.index t (0 : Fin 2) = 0 := congrFun e2 0
  have e2_1 : win4_2.index t (1 : Fin 2) = 0 := congrFun e2 1
  refine funext fun (j : S1x512x1024.Idx) => ?_
  obtain ⟨z, r, f, rfl⟩ : ∃ (z : Fin 1) (r : Fin 512) (f : Fin 1024), j = ix3 z r f := ⟨j 0, j 1, j 2, eq_ix3 j⟩
  have hemb : ((cfg4.win 3).blk t).view.emb (ix3 z r f) = ix3 n (row q r) f := by
    funext a; apply Fin.ext
    match a with
    | ⟨0, _⟩ => show win4_3.index t (0 : Fin 3) * 1 + 1 * z.val = n.val; have := z.isLt; omega
    | ⟨1, _⟩ => show win4_3.index t (1 : Fin 3) * 512 + 1 * r.val = q.val * 512 + r.val; omega
    | ⟨2, _⟩ => show win4_3.index t (2 : Fin 3) * 1024 + 1 * f.val = f.val; omega
  show k4_pay1 (F := Ideal) (iblk4 V c 0 t) (iblk4 V c 1 t) (iblk4 V c 2 t) (ix3 z r f)
    = Cert.MHA.outp (V c main_v15) (V c main_v16) (V c main_v17) (((cfg4.win 3).blk t).view.emb (ix3 z r f))
  rw [hemb]
  refine point_eq (V c main_v15) (V c main_v16) (V c main_v17) (iblk4 V c 0 t) (iblk4 V c 1 t) (iblk4 V c 2 t) n (row q)
    ?_ ?_ ?_ z r f
  · intro h r d
    have he : ((cfg4.win 0).blk t).view.emb (ix4 (0 : Fin 1) h r d) = ix4 n h (row q r) d := by
      funext a; apply Fin.ext
      match a with
      | ⟨0, _⟩ => show win4_0.index t (0 : Fin 4) * 1 + 1 * 0 = n.val; omega
      | ⟨1, _⟩ => show win4_0.index t (1 : Fin 4) * 16 + 1 * h.val = h.val; omega
      | ⟨2, _⟩ => show win4_0.index t (2 : Fin 4) * 512 + 1 * r.val = q.val * 512 + r.val; omega
      | ⟨3, _⟩ => show win4_0.index t (3 : Fin 4) * 64 + 1 * d.val = d.val; omega
    show V c main_v15 (((cfg4.win 0).blk t).view.emb (ix4 (0 : Fin 1) h r d)) = V c main_v15 (ix4 n h (row q r) d)
    rw [he]
  · intro e f
    have he : ((cfg4.win 1).blk t).view.emb (ix2 e f) = ix2 e f := by
      funext a; apply Fin.ext
      match a with
      | ⟨0, _⟩ => show win4_1.index t (0 : Fin 2) * 1024 + 1 * e.val = e.val; omega
      | ⟨1, _⟩ => show win4_1.index t (1 : Fin 2) * 1024 + 1 * f.val = f.val; omega
    show V c main_v16 (((cfg4.win 1).blk t).view.emb (ix2 e f)) = V c main_v16 (ix2 e f)
    rw [he]
  · intro f
    have he : ((cfg4.win 2).blk t).view.emb (ix2 (0 : Fin 1) f) = ix2 (0 : Fin 1) f := by
      funext a; apply Fin.ext
      match a with
      | ⟨0, _⟩ => show win4_2.index t (0 : Fin 2) * 1 + 1 * 0 = 0; omega
      | ⟨1, _⟩ => show win4_2.index t (1 : Fin 2) * 1024 + 1 * f.val = f.val; omega
    show V c main_v17 (((cfg4.win 2).blk t).view.emb (ix2 (0 : Fin 1) f)) = V c main_v17 (ix2 (0 : Fin 1) f)
    rw [he]

/-- An index of the result is in point t's block iff each coordinate is in the block's range on its axis. -/
theorem mem_block (t : Fin cfg4.N) (i : S2x2048x1024.Idx) :
    i ∈ ((cfg4.win 3).blk t).view.set ↔ ∀ a : Fin 3, win4_3.index t a * S1x512x1024.size a ≤ (i a).val
      ∧ (i a).val < win4_3.index t a * S1x512x1024.size a + S1x512x1024.size a := by
  show i ∈ ((View.whole main_v18).slice (win4_3.rect t)).set ↔ _
  rw [View.set_slice_whole, Rect.mem_set_unit]
  exact Iff.rfl

/-- The eight blocks tile the result: index (n, s, f) is in the block of the point with block index (n, s / 512, 0). -/
theorem covered (i : S2x2048x1024.Idx) :
    ∃ t : Fin cfg4.N, (cfg4.win 3).flush t = true ∧ i ∈ ((cfg4.win 3).blk t).view.set := by
  have hi0 : (i 0).val < 2 := (i 0).isLt
  have hi1 : (i 1).val < 2048 := (i 1).isLt
  have hi2 : (i 2).val < 1024 := (i 2).isLt
  obtain ⟨t, ht⟩ := index_onto ⟨(i 0).val, hi0⟩ ⟨(i 1).val / 512, by omega⟩
  have q0 : win4_3.index t (0 : Fin 3) = (i 0).val := congrFun ht 0
  have q1 : win4_3.index t (1 : Fin 3) = (i 1).val / 512 := congrFun ht 1
  have q2 : win4_3.index t (2 : Fin 3) = 0 := congrFun ht 2
  refine ⟨t, flush4_3 t, ?_⟩
  rw [mem_block]
  intro a
  match a with
  | ⟨0, _⟩ =>
    show win4_3.index t (0 : Fin 3) * 1 ≤ (i 0).val ∧ (i 0).val < win4_3.index t (0 : Fin 3) * 1 + 1
    omega
  | ⟨1, _⟩ =>
    show win4_3.index t (1 : Fin 3) * 512 ≤ (i 1).val ∧ (i 1).val < win4_3.index t (1 : Fin 3) * 512 + 512
    omega
  | ⟨2, _⟩ =>
    show win4_3.index t (2 : Fin 3) * 1024 ≤ (i 2).val ∧ (i 2).val < win4_3.index t (2 : Fin 3) * 1024 + 1024
    omega

/-- THE ARRAY after the region: the output layer of the attention output, the weights and the bias row. -/
theorem final4 (c : Dev nD) :
    (dat4 (F := Ideal) V c).arrAt 3 cfg4.N = Cert.MHA.outp (V c main_v15) (V c main_v16) (V c main_v17) :=
  (dat4 (F := Ideal) V c).arrAt_eq_of_cover 3 (Cert.MHA.outp (V c main_v15) (V c main_v16) (V c main_v17))
    (fun t _ => flushed_eq V c t) covered

end Cert.KernelIdeal.OutValue

end
-- ==== Proof.Layout.lean ====
/-
  The weights and biases as the kernels receive them.

  Each input layer's weight is a 1024-row block of the stacked matrix, transposed, and its bias the matching block of
  the stacked vector laid out as one row; the output layer's weight is the output matrix transposed and its bias the
  output vector as one row. Read at an index these are re-indexings of the argument arrays, which is what the
  specification's blockT, blockRow, transp and asRow say.
-/
import Idealize.ShloMosaic.Lib.Pipeline.Value
import Idealize.ShloMosaic.Lib.ValueIdx
import proofs.«157763_j27376121545288_2_alg».proof.Proof.Spec

noncomputable section

namespace Cert.MHA.Layout

open Idealize.ShloMosaic Idealize.ShloMosaic.ValueIdx Cert.MHA

/-- A row block of the stacked matrix, transposed. -/
theorem blockT_eq (off : Nat) (hoff : off ≤ 2048) (X : Stack)
    (hs : (⟨2, ![3072, 1024]⟩ : Shape).Slices ![off, 0] ⟨2, ![1024, 1024]⟩)
    (ht : (⟨2, ![1024, 1024]⟩ : Shape).Transposes [1, 0] ⟨2, ![1024, 1024]⟩) :
    transpose ⟨2, ![1024, 1024]⟩ [1, 0] (extractStridedSlice ⟨2, ![1024, 1024]⟩ ![off, 0] X hs) ht = blockT off hoff X := by
  funext i
  rw [transpose_apply [1, 0] _ ht i (ix2 (i 1) (i 0)) (fun b => match b with | ⟨0, _⟩ => rfl | ⟨1, _⟩ => rfl)]
  exact extractStridedSlice_apply ![off, 0] X hs (ix2 (i 1) (i 0)) (ix2 (shift off hoff (i 1)) (i 0)) (fun a => match a with
    | ⟨0, _⟩ => rfl
    | ⟨1, _⟩ => by show (i 0).val = 0 + (i 0).val; omega)

/-- A block of the stacked vector as one row. -/
theorem blockRow_eq (off : Nat) (hoff : off ≤ 2048) (B : StackB)
    (hs : (⟨1, ![3072]⟩ : Shape).Slices ![off] ⟨1, ![1024]⟩)
    (hc : (⟨1, ![1024]⟩ : Shape).ShapeCasts ⟨2, ![1, 1024]⟩) :
    shapeCast ⟨2, ![1, 1024]⟩ (extractStridedSlice ⟨1, ![1024]⟩ ![off] B hs) hc = blockRow off hoff B := by
  funext i
  rw [shapeCast_apply _ hc i (ix1 (i 1)) (by
    rw [Shape.rowMajor_val_one, Shape.rowMajor_val_two]
    have h0 : (i 0).val < 1 := (i 0).isLt
    show (i 1).val = (i 0).val * 1024 + (i 1).val; omega)]
  exact extractStridedSlice_apply ![off] B hs (ix1 (i 1)) (ix1 (shift off hoff (i 1))) (fun a => match a with
    | ⟨0, _⟩ => rfl)

/-- A square matrix transposed. -/
theorem transp_eq (X : Sq) (ht : (⟨2, ![1024, 1024]⟩ : Shape).Transposes [1, 0] ⟨2, ![1024, 1024]⟩) :
    transpose ⟨2, ![1024, 1024]⟩ [1, 0] X ht = transp X := by
  funext i
  exact transpose_apply [1, 0] X ht i (ix2 (i 1) (i 0)) (fun b => match b with | ⟨0, _⟩ => rfl | ⟨1, _⟩ => rfl)

/-- A vector as one row. -/
theorem asRow_eq (B : Bias) (hc : (⟨1, ![1024]⟩ : Shape).ShapeCasts ⟨2, ![1, 1024]⟩) :
    shapeCast ⟨2, ![1, 1024]⟩ B hc = asRow B := by
  funext i
  exact shapeCast_apply B hc i (ix1 (i 1)) (by
    rw [Shape.rowMajor_val_one, Shape.rowMajor_val_two]
    have h0 : (i 0).val < 1 := (i 0).isLt
    show (i 1).val = (i 0).val * 1024 + (i 1).val; omega)

end Cert.MHA.Layout

end
-- ==== Proof.KernelValue.lean ====
/-
  The idealized kernel's result as one function of its seven arguments.

  The program's buffer contents at its nine segment boundaries are a fold from the launch memory: a stretch of host
  operations rewrites the buffers it writes, a kernel region rewrites its output array with what its grid points wrote
  back, and everything else is carried along. Walking that fold back from the result: the last region's output is the
  output layer of the attention output, the output matrix transposed and the output bias as a row; the attention
  output is attention of the three projections, each still standing as its region left it; each projection is the
  linear layer of one activation argument with a row block of the stacked weights, transposed, and the matching
  block of the stacked bias as a row. Composed, that is the specification's whole layer.
-/
import proofs.«157763_j27376121545288_2_alg».proof.Proof.Gen.KernelIdeal.Frame
import proofs.«157763_j27376121545288_2_alg».proof.Proof.ProjValue0
import proofs.«157763_j27376121545288_2_alg».proof.Proof.ProjValue1
import proofs.«157763_j27376121545288_2_alg».proof.Proof.ProjValue2
import proofs.«157763_j27376121545288_2_alg».proof.Proof.AttnValue
import proofs.«157763_j27376121545288_2_alg».proof.Proof.OutValue
import proofs.«157763_j27376121545288_2_alg».proof.Proof.Layout
import proofs.«157763_j27376121545288_2_alg».proof.Proof.Spec

noncomputable section
open Idealize.ShloMosaic Idealize.ShloMosaic.TcCoe Idealize.SL.Sem Idealize.ShloMosaic.StableHlo

namespace Cert.KernelIdeal.Chain
open Cert.KernelIdeal Cert.KernelIdeal.Gen Cert.MHA
open Cert.KernelIdeal.ProjValue Cert.KernelIdeal.AttnValue Cert.KernelIdeal.OutValue

variable (m : (ℓ : Loc nD τ sig) → Buf (Elt Ideal) ℓ) (ρ : Dev nD → PrngReg) (c : Dev nD)

/-- One buffer read through a stretch of host operations. -/
local macro "through " ops:ident : tactic => `(tactic| (dsimp only [$ops:ident]; after_results))

/-! ## Before the first region: the three weight blocks, the first bias row, the two later bias blocks -/

theorem in0_x : W1 m ρ c (Proc.devRef .tc main_arg0) = m ((c : Thread nD τ).loc main_arg0) := by
  show StableHlo.after hostOps0 (W0 m ρ c) (Proc.devRef .tc main_arg0) = _; through hostOps0
theorem in0_w : W1 m ρ c (Proc.devRef .tc main_v6) = blockT 0 (by decide) (m ((c : Thread nD τ).loc main_arg3)) := by
  show StableHlo.after hostOps0 (W0 m ρ c) (Proc.devRef .tc main_v6) = _; through hostOps0
  exact Layout.blockT_eq 0 _ _ _ _
theorem in0_b : W1 m ρ c (Proc.devRef .tc main_v9) = blockRow 0 (by decide) (m ((c : Thread nD τ).loc main_arg4)) := by
  show StableHlo.after hostOps0 (W0 m ρ c) (Proc.devRef .tc main_v9) = _; through hostOps0
  exact Layout.blockRow_eq 0 _ _ slices_S3072_S1024_0 shapeCasts_S1024_S1x1024
theorem pre1_x : W1 m ρ c (Proc.devRef .tc main_arg1) = m ((c : Thread nD τ).loc main_arg1) := by
  show StableHlo.after hostOps0 (W0 m ρ c) (Proc.devRef .tc main_arg1) = _; through hostOps0
theorem pre1_w : W1 m ρ c (Proc.devRef .tc main_v7) = blockT 1024 (by decide) (m ((c : Thread nD τ).loc main_arg3)) := by
  show StableHlo.after hostOps0 (W0 m ρ c) (Proc.devRef .tc main_v7) = _; through hostOps0
  exact Layout.blockT_eq 1024 _ _ _ _
theorem pre1_b : W1 m ρ c (Proc.devRef .tc main_v4)
    = extractStridedSlice S1024 ![1024] (m ((c : Thread nD τ).loc main_arg4)) slices_S3072_S1024_1024 := by
  show StableHlo.after hostOps0 (W0 m ρ c) (Proc.devRef .tc main_v4) = _; through hostOps0
theorem pre2_x : W1 m ρ c (Proc.devRef .tc main_arg2) = m ((c : Thread nD τ).loc main_arg2) := by
  show StableHlo.after hostOps0 (W0 m ρ c) (Proc.devRef .tc main_arg2) = _; through hostOps0
theorem pre2_w : W1 m ρ c (Proc.devRef .tc main_v8) = blockT 2048 (by decide) (m ((c : Thread nD τ).loc main_arg3)) := by
  show StableHlo.after hostOps0 (W0 m ρ c) (Proc.devRef .tc main_v8) = _; through hostOps0
  exact Layout.blockT_eq 2048 _ _ _ _
theorem pre2_b : W1 m ρ c (Proc.devRef .tc main_v5)
    = extractStridedSlice S1024 ![2048] (m ((c : Thread nD τ).loc main_arg4)) slices_S3072_S1024_2048 := by
  show StableHlo.after hostOps0 (W0 m ρ c) (Proc.devRef .tc main_v5) = _; through hostOps0
theorem pre4_w : W1 m ρ c (Proc.devRef .tc main_arg5) = m ((c : Thread nD τ).loc main_arg5) := by
  show StableHlo.after hostOps0 (W0 m ρ c) (Proc.devRef .tc main_arg5) = _; through hostOps0
theorem pre4_b : W1 m ρ c (Proc.devRef .tc main_arg6) = m ((c : Thread nD τ).loc main_arg6) := by
  show StableHlo.after hostOps0 (W0 m ρ c) (Proc.devRef .tc main_arg6) = _; through hostOps0

/-! ## The queries: the first region's output -/

theorem queries : W2 m ρ c (Proc.devRef .tc main_v10)
    = proj (m ((c : Thread nD τ).loc main_arg0)) (blockT 0 (by decide) (m ((c : Thread nD τ).loc main_arg3)))
        (blockRow 0 (by decide) (m ((c : Thread nD τ).loc main_arg4))) := by
  refine (W2_arr m ρ c 3).trans ((final0 (V1 m ρ) c).trans ?_)
  show proj (W1 m ρ c (Proc.devRef .tc main_arg0)) (W1 m ρ c (Proc.devRef .tc main_v6)) (W1 m ρ c (Proc.devRef .tc main_v9)) = _
  rw [in0_x, in0_w, in0_b]

/-! ## The keys: the second region's output -/

theorem in1_x : W3 m ρ c (Proc.devRef .tc main_arg1) = m ((c : Thread nD τ).loc main_arg1) := by
  show StableHlo.after hostOps1 (W2 m ρ c) (Proc.devRef .tc main_arg1) = _; through hostOps1
  exact (W2_of_ne m ρ c main_arg1 (by decide)).trans (pre1_x m ρ c)
theorem in1_w : W3 m ρ c (Proc.devRef .tc main_v7) = blockT 1024 (by decide) (m ((c : Thread nD τ).loc main_arg3)) := by
  show StableHlo.after hostOps1 (W2 m ρ c) (Proc.devRef .tc main_v7) = _; through hostOps1
  exact (W2_of_ne m ρ c main_v7 (by decide)).trans (pre1_w m ρ c)
theorem in1_b : W3 m ρ c (Proc.devRef .tc main_v11) = blockRow 1024 (by decide) (m ((c : Thread nD τ).loc main_arg4)) := by
  show StableHlo.after hostOps1 (W2 m ρ c) (Proc.devRef .tc main_v11) = _; through hostOps1
  rw [W2_of_ne m ρ c main_v4 (by decide), pre1_b]
  exact Layout.blockRow_eq 1024 _ _ slices_S3072_S1024_1024 shapeCasts_S1024_S1x1024

theorem keys : W4 m ρ c (Proc.devRef .tc main_v12)
    = proj (m ((c : Thread nD τ).loc main_arg1)) (blockT 1024 (by decide) (m ((c : Thread nD τ).loc main_arg3)))
        (blockRow 1024 (by decide) (m ((c : Thread nD τ).loc main_arg4))) := by
  refine (W4_arr m ρ c 3).trans ((final1 (V3 m ρ) c).trans ?_)
  show proj (W3 m ρ c (Proc.devRef .tc main_arg1)) (W3 m ρ c (Proc.devRef .tc main_v7)) (W3 m ρ c (Proc.devRef .tc main_v11)) = _
  rw [in1_x, in1_w, in1_b]

/-! ## The values: the third region's output -/

theorem in2_x : W5 m ρ c (Proc.devRef .tc main_arg2) = m ((c : Thread nD τ).loc main_arg2) := by
  show StableHlo.after hostOps2 (W4 m ρ c) (Proc.devRef .tc main_arg2) = _; through hostOps2
  refine (W4_of_ne m ρ c main_arg2 (by decide)).trans ?_
  show StableHlo.after hostOps1 (W2 m ρ c) (Proc.devRef .tc main_arg2) = _; through hostOps1
  exact (W2_of_ne m ρ c main_arg2 (by decide)).trans (pre2_x m ρ c)
theorem in2_w : W5 m ρ c (Proc.devRef .tc main_v8) = blockT 2048 (by decide) (m ((c : Thread nD τ).loc main_arg3)) := by
  show StableHlo.after hostOps2 (W4 m ρ c) (Proc.devRef .tc main_v8) = _; through hostOps2
  refine (W4_of_ne m ρ c main_v8 (by decide)).trans ?_
  show StableHlo.after hostOps1 (W2 m ρ c) (Proc.devRef .tc main_v8) = _; through hostOps1
  exact (W2_of_ne m ρ c main_v8 (by decide)).trans (pre2_w m ρ c)
theorem mid2_b : W4 m ρ c (Proc.devRef .tc main_v5)
    = extractStridedSlice S1024 ![2048] (m ((c : Thread nD τ).loc main_arg4)) slices_S3072_S1024_2048 := by
  refine (W4_of_ne m ρ c main_v5 (by decide)).trans ?_
  show StableHlo.after hostOps1 (W2 m ρ c) (Proc.devRef .tc main_v5) = _; through hostOps1
  exact (W2_of_ne m ρ c main_v5 (by decide)).trans (pre2_b m ρ c)
theorem in2_b : W5 m ρ c (Proc.devRef .tc main_v13) = blockRow 2048 (by decide) (m ((c : Thread nD τ).loc main_arg4)) := by
  show StableHlo.after hostOps2 (W4 m ρ c) (Proc.devRef .tc main_v13) = _; through hostOps2
  rw [mid2_b]
  exact Layout.blockRow_eq 2048 _ _ slices_S3072_S1024_2048 shapeCasts_S1024_S1x1024

theorem values : W6 m ρ c (Proc.devRef .tc main_v14)
    = proj (m ((c : Thread nD τ).loc main_arg2)) (blockT 2048 (by decide) (m ((c : Thread nD τ).loc main_arg3)))
        (blockRow 2048 (by decide) (m ((c : Thread nD τ).loc main_arg4))) := by
  refine (W6_arr m ρ c 3).trans ((final2 (V5 m ρ) c).trans ?_)
  show proj (W5 m ρ c (Proc.devRef .tc main_arg2)) (W5 m ρ c (Proc.devRef .tc main_v8)) (W5 m ρ c (Proc.devRef .tc main_v13)) = _
  rw [in2_x, in2_w, in2_b]

/-! ## Attention: the fourth region's output, from the three projections as they stand when it starts -/

theorem in3_q : W6 m ρ c (Proc.devRef .tc main_v10) = W2 m ρ c (Proc.devRef .tc main_v10) := by
  refine (W6_of_ne m ρ c main_v10 (by decide)).trans ?_
  show StableHlo.after hostOps2 (W4 m ρ c) (Proc.devRef .tc main_v10) = _; through hostOps2
  refine (W4_of_ne m ρ c main_v10 (by decide)).trans ?_
  show StableHlo.after hostOps1 (W2 m ρ c) (Proc.devRef .tc main_v10) = _; through hostOps1
theorem in3_k : W6 m ρ c (Proc.devRef .tc main_v12) = W4 m ρ c (Proc.devRef .tc main_v12) := by
  refine (W6_of_ne m ρ c main_v12 (by decide)).trans ?_
  show StableHlo.after hostOps2 (W4 m ρ c) (Proc.devRef .tc main_v12) = _; through hostOps2

theorem mixed : W7 m ρ c (Proc.devRef .tc main_v15)
    = attend (W2 m ρ c (Proc.devRef .tc main_v10)) (W4 m ρ c (Proc.devRef .tc main_v12)) (W6 m ρ c (Proc.devRef .tc main_v14)) := by
  refine (W7_arr m ρ c 3).trans ((final3 (V6 m ρ) c).trans ?_)
  show attend (W6 m ρ c (Proc.devRef .tc main_v10)) (W6 m ρ c (Proc.devRef .tc main_v12)) (W6 m ρ c (Proc.devRef .tc main_v14)) = _
  rw [in3_q, in3_k]

/-! ## The output layer -/

theorem late_w : W7 m ρ c (Proc.devRef .tc main_arg5) = m ((c : Thread nD τ).loc main_arg5) := by
  refine (W7_of_ne m ρ c main_arg5 (by decide)).trans ((W6_of_ne m ρ c main_arg5 (by decide)).trans ?_)
  show StableHlo.after hostOps2 (W4 m ρ c) (Proc.devRef .tc main_arg5) = _; through hostOps2
  refine (W4_of_ne m ρ c main_arg5 (by decide)).trans ?_
  show StableHlo.after hostOps1 (W2 m ρ c) (Proc.devRef .tc main_arg5) = _; through hostOps1
  exact (W2_of_ne m ρ c main_arg5 (by decide)).trans (pre4_w m ρ c)
theorem late_b : W7 m ρ c (Proc.devRef .tc main_arg6) = m ((c : Thread nD τ).loc main_arg6) := by
  refine (W7_of_ne m ρ c main_arg6 (by decide)).trans ((W6_of_ne m ρ c main_arg6 (by decide)).trans ?_)
  show StableHlo.after hostOps2 (W4 m ρ c) (Proc.devRef .tc main_arg6) = _; through hostOps2
  refine (W4_of_ne m ρ c main_arg6 (by decide)).trans ?_
  show StableHlo.after hostOps1 (W2 m ρ c) (Proc.devRef .tc main_arg6) = _; through hostOps1
  exact (W2_of_ne m ρ c main_arg6 (by decide)).trans (pre4_b m ρ c)

theorem in4_a : W8 m ρ c (Proc.devRef .tc main_v15) = W7 m ρ c (Proc.devRef .tc main_v15) := by
  show StableHlo.after hostOps4 (W7 m ρ c) (Proc.devRef .tc main_v15) = _; through hostOps4
theorem in4_w : W8 m ρ c (Proc.devRef .tc main_v16) = transp (m ((c : Thread nD τ).loc main_arg5)) := by
  show StableHlo.after hostOps4 (W7 m ρ c) (Proc.devRef .tc main_v16) = _; through hostOps4
  rw [late_w]
  exact Layout.transp_eq _ _
theorem in4_b : W8 m ρ c (Proc.devRef .tc main_v17) = asRow (m ((c : Thread nD τ).loc main_arg6)) := by
  show StableHlo.after hostOps4 (W7 m ρ c) (Proc.devRef .tc main_v17) = _; through hostOps4
  rw [late_b]
  exact Layout.asRow_eq _ _

/-- The result buffer at the last boundary is the whole layer of the seven arguments as launched. -/
theorem value : W9 m ρ c (Proc.devRef .tc main_v18)
    = mha (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W9_arr m ρ c 3).trans ((final4 (V8 m ρ) c).trans ?_)
  show outp (W8 m ρ c (Proc.devRef .tc main_v15)) (W8 m ρ c (Proc.devRef .tc main_v16)) (W8 m ρ c (Proc.devRef .tc main_v17)) = _
  rw [in4_a, in4_w, in4_b, mixed, queries, keys, values]
  rfl

end Cert.KernelIdeal.Chain

end
-- ==== Proof.RefProj.lean ====
/-
  The reference's three input layers, read as the specification's linear layer into head-major layout.

  Each layer is the same chain of operations on its own activations and its own block of the stacked
  weights and biases: the block of 1024 rows is sliced out of the [3072, 1024] matrix, the activations are
  contracted with it over the feature axis (the slice's SECOND axis, so the matrix enters transposed), the
  sliced bias is broadcast over batch and position and added, and the [2, 2048, 1024] result is split into
  heads, [2, 2048, 16, 64], and transposed to [2, 16, 2048, 64]. Read at (n, h, s, d) the split and the
  transposition land on position s and feature h * 64 + d of the [2, 2048, 1024] array: the row-major
  offset ((n * 2048 + s) * 16 + h) * 64 + d is (n * 2048 + s) * 1024 + (h * 64 + d). Everything else is a
  renaming of indices.
-/
import proofs.«157763_j27376121545288_2_alg».proof.Proof.Gen.ReferenceIdeal.Read
import proofs.«157763_j27376121545288_2_alg».proof.Proof.Spec

noncomputable section

open scoped BigOperators

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MHA

/-- Lane d of head h at position s, read through the transposition and the split into heads, is position s
    and feature h * 64 + d of the unsplit array. -/
theorem split_idx (n : Fin 2) (h : Fin 16) (s : Fin 2048) (d : Fin 64) :
    idx_main_v18 (idx_main_v19 (ix4 n h s d)) = ix3 n s (feat h d) := by
  funext a
  apply Fin.ext
  have := n.isLt; have := h.isLt; have := s.isLt; have := d.isLt
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = h.val * 64 + d.val; omega

theorem split_idx1 (n : Fin 2) (h : Fin 16) (s : Fin 2048) (d : Fin 64) :
    idx_main_v20 (idx_main_v21 (ix4 n h s d)) = ix3 n s (feat h d) := split_idx n h s d
theorem split_idx2 (n : Fin 2) (h : Fin 16) (s : Fin 2048) (d : Fin 64) :
    idx_main_v22 (idx_main_v23 (ix4 n h s d)) = ix3 n s (feat h d) := split_idx n h s d

/-- The contraction's left index: the activations at (n, s, e). -/
theorem lidx_eq (n : Fin 2) (s : Fin 2048) (f e : Fin 1024) : lidx_main_v6 (ix3 n s f) e = ix3 n s e :=
  funext fun a => Fin.ext (by match a with | ⟨0, _⟩ => rfl | ⟨1, _⟩ => rfl | ⟨2, _⟩ => rfl)
theorem lidx1_eq (n : Fin 2) (s : Fin 2048) (f e : Fin 1024) : lidx_main_v10 (ix3 n s f) e = ix3 n s e :=
  lidx_eq n s f e
theorem lidx2_eq (n : Fin 2) (s : Fin 2048) (f e : Fin 1024) : lidx_main_v14 (ix3 n s f) e = ix3 n s e :=
  lidx_eq n s f e

/-- The contraction's right index, through the slice that starts at row off: row off + f, column e of the
    stacked matrix. -/
theorem ridx0_eq (n : Fin 2) (s : Fin 2048) (f e : Fin 1024) :
    idx_main_v0 (ridx_main_v6 (ix3 n s f) e) = ix2 (shift 0 (by decide) f) e :=
  funext fun a => Fin.ext (by match a with | ⟨0, _⟩ => exact (Nat.zero_add _).symm | ⟨1, _⟩ => rfl)
theorem ridx1_eq (n : Fin 2) (s : Fin 2048) (f e : Fin 1024) :
    idx_main_v1 (ridx_main_v10 (ix3 n s f) e) = ix2 (shift 1024 (by decide) f) e :=
  funext fun a => Fin.ext (by match a with | ⟨0, _⟩ => rfl | ⟨1, _⟩ => rfl)
theorem ridx2_eq (n : Fin 2) (s : Fin 2048) (f e : Fin 1024) :
    idx_main_v2 (ridx_main_v14 (ix3 n s f) e) = ix2 (shift 2048 (by decide) f) e :=
  funext fun a => Fin.ext (by match a with | ⟨0, _⟩ => rfl | ⟨1, _⟩ => rfl)

/-- The bias, through the two broadcasts and the slice that starts at off: entry off + f of the stacked
    biases. -/
theorem bidx0_eq (n : Fin 2) (s : Fin 2048) (f : Fin 1024) :
    idx_main_v3 (idx_main_v7 (idx_main_v8 (ix3 n s f))) = ix1 (shift 0 (by decide) f) :=
  funext fun a => Fin.ext (by match a with | ⟨0, _⟩ => exact (Nat.zero_add _).symm)
theorem bidx1_eq (n : Fin 2) (s : Fin 2048) (f : Fin 1024) :
    idx_main_v4 (idx_main_v11 (idx_main_v12 (ix3 n s f))) = ix1 (shift 1024 (by decide) f) :=
  funext fun a => Fin.ext (by match a with | ⟨0, _⟩ => rfl)
theorem bidx2_eq (n : Fin 2) (s : Fin 2048) (f : Fin 1024) :
    idx_main_v5 (idx_main_v15 (idx_main_v16 (ix3 n s f))) = ix1 (shift 2048 (by decide) f) :=
  funext fun a => Fin.ext (by match a with | ⟨0, _⟩ => rfl)

/-- The query layer. -/
theorem proj0_eq (x0 : (⟨S2x2048x1024, .f32⟩ : BufTy).Contents (Elt Ideal)) (x3 : (⟨S3072x1024, .f32⟩ : BufTy).Contents (Elt Ideal))
    (x4 : (⟨S3072, .f32⟩ : BufTy).Contents (Elt Ideal)) :
    val_main_v19 (F := Ideal) x0 x3 x4 = proj x0 (blockT 0 (by decide) x3) (blockRow 0 (by decide) x4) := by
  funext j
  obtain ⟨n, h, s, d, rfl⟩ : ∃ (n : Fin 2) (h : Fin 16) (s : Fin 2048) (d : Fin 64), j = ix4 n h s d :=
    ⟨j 0, j 1, j 2, j 3, eq_ix4 j⟩
  rw [val_main_v19_apply, val_main_v18_apply, split_idx, val_main_v9_apply, val_main_v6_apply, val_main_v8_apply,
    val_main_v7_apply, val_main_v3_apply, bidx0_eq, proj_apply, Ideal.addf_def]
  simp only [val_main_v0_apply, lidx_eq, ridx0_eq, blockT_apply, blockRow_apply]

/-- The key layer: the same chain on the second block. -/
theorem proj1_eq (x1 : (⟨S2x2048x1024, .f32⟩ : BufTy).Contents (Elt Ideal)) (x3 : (⟨S3072x1024, .f32⟩ : BufTy).Contents (Elt Ideal))
    (x4 : (⟨S3072, .f32⟩ : BufTy).Contents (Elt Ideal)) :
    val_main_v21 (F := Ideal) x1 x3 x4 = proj x1 (blockT 1024 (by decide) x3) (blockRow 1024 (by decide) x4) := by
  funext j
  obtain ⟨n, h, s, d, rfl⟩ : ∃ (n : Fin 2) (h : Fin 16) (s : Fin 2048) (d : Fin 64), j = ix4 n h s d :=
    ⟨j 0, j 1, j 2, j 3, eq_ix4 j⟩
  rw [val_main_v21_apply, val_main_v20_apply, split_idx1, val_main_v13_apply, val_main_v10_apply, val_main_v12_apply,
    val_main_v11_apply, val_main_v4_apply, bidx1_eq, proj_apply, Ideal.addf_def]
  simp only [val_main_v1_apply, lidx1_eq, ridx1_eq, blockT_apply, blockRow_apply]

/-- The value layer: the same chain on the third block. -/
theorem proj2_eq (x2 : (⟨S2x2048x1024, .f32⟩ : BufTy).Contents (Elt Ideal)) (x3 : (⟨S3072x1024, .f32⟩ : BufTy).Contents (Elt Ideal))
    (x4 : (⟨S3072, .f32⟩ : BufTy).Contents (Elt Ideal)) :
    val_main_v23 (F := Ideal) x2 x3 x4 = proj x2 (blockT 2048 (by decide) x3) (blockRow 2048 (by decide) x4) := by
  funext j
  obtain ⟨n, h, s, d, rfl⟩ : ∃ (n : Fin 2) (h : Fin 16) (s : Fin 2048) (d : Fin 64), j = ix4 n h s d :=
    ⟨j 0, j 1, j 2, j 3, eq_ix4 j⟩
  rw [val_main_v23_apply, val_main_v22_apply, split_idx2, val_main_v17_apply, val_main_v14_apply, val_main_v16_apply,
    val_main_v15_apply, val_main_v5_apply, bidx2_eq, proj_apply, Ideal.addf_def]
  simp only [val_main_v2_apply, lidx2_eq, ridx2_eq, blockT_apply, blockRow_apply]

end Cert.ReferenceIdeal.RefValue

end
-- ==== Proof.RefAttn.lean ====
/-
  The reference's attention, read as the specification's, for arbitrary head-major queries, keys and values.

  Per batch n and head h the reference contracts the 64 lanes of query row s with those of key row t and
  scales the result by 1/8; reduces each score row with a maximum from minus infinity, and takes the
  maximum of that with minus infinity once more; subtracts it, exponentiates, sums the row from zero,
  divides; and contracts the weights with the value rows over the key positions. Minus infinity is the unit
  of max on the extended reals and zero the unit of their sum, so the two reductions are the bare fold and
  the bare sum. The rest is a renaming of indices: a reduced or broadcast axis is read at the coordinate
  the operation inserts.

  The three projected arrays enter only as the stages that compute them; nothing below looks inside them.
-/
import proofs.«157763_j27376121545288_2_alg».proof.Proof.Gen.ReferenceIdeal.Read
import proofs.«157763_j27376121545288_2_alg».proof.Proof.Spec

noncomputable section

open scoped BigOperators

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MHA

/-! ## Index renamings -/

theorem lidx24_eq (n : Fin 2) (h : Fin 16) (s t : Fin 2048) (d : Fin 64) :
    lidx_main_v24 (ix4 n h s t) d = ix4 n h s d :=
  funext fun a => Fin.ext (by match a with | ⟨0, _⟩ => rfl | ⟨1, _⟩ => rfl | ⟨2, _⟩ => rfl | ⟨3, _⟩ => rfl)
theorem ridx24_eq (n : Fin 2) (h : Fin 16) (s t : Fin 2048) (d : Fin 64) :
    ridx_main_v24 (ix4 n h s t) d = ix4 n h t d :=
  funext fun a => Fin.ext (by match a with | ⟨0, _⟩ => rfl | ⟨1, _⟩ => rfl | ⟨2, _⟩ => rfl | ⟨3, _⟩ => rfl)
/-- A row's statistic broadcast back along the key axis is read at the row. -/
theorem idx31_eq (n : Fin 2) (h : Fin 16) (s t : Fin 2048) :
    idx_main_v30 (idx_main_v31 (ix4 n h s t)) = ix3 n h s :=
  funext fun a => Fin.ext (by match a with | ⟨0, _⟩ => rfl | ⟨1, _⟩ => rfl | ⟨2, _⟩ => rfl)
theorem idx36_eq (n : Fin 2) (h : Fin 16) (s t : Fin 2048) :
    idx_main_v35 (idx_main_v36 (ix4 n h s t)) = ix3 n h s :=
  funext fun a => Fin.ext (by match a with | ⟨0, _⟩ => rfl | ⟨1, _⟩ => rfl | ⟨2, _⟩ => rfl)
theorem idx34_eq (n : Fin 2) (h : Fin 16) (s t : Fin 2048) :
    idx_main_v34 (ix3 n h s) t = ix4 n h s t :=
  funext fun a => Fin.ext (by match a with | ⟨0, _⟩ => rfl | ⟨1, _⟩ => rfl | ⟨2, _⟩ => rfl | ⟨3, _⟩ => rfl)
theorem lidx38_eq (n : Fin 2) (h : Fin 16) (s t : Fin 2048) (d : Fin 64) :
    lidx_main_v38 (ix4 n h s d) t = ix4 n h s t :=
  funext fun a => Fin.ext (by match a with | ⟨0, _⟩ => rfl | ⟨1, _⟩ => rfl | ⟨2, _⟩ => rfl | ⟨3, _⟩ => rfl)
theorem ridx38_eq (n : Fin 2) (h : Fin 16) (s t : Fin 2048) (d : Fin 64) :
    ridx_main_v38 (ix4 n h s d) t = ix4 n h t d :=
  funext fun a => Fin.ext (by match a with | ⟨0, _⟩ => rfl | ⟨1, _⟩ => rfl | ⟨2, _⟩ => rfl | ⟨3, _⟩ => rfl)

/-! ## The scores -/

theorem score_eq (x0 x1 : (⟨S2x2048x1024, .f32⟩ : BufTy).Contents (Elt Ideal)) (x3 : (⟨S3072x1024, .f32⟩ : BufTy).Contents (Elt Ideal))
    (x4 : (⟨S3072, .f32⟩ : BufTy).Contents (Elt Ideal)) (n : Fin 2) (h : Fin 16) (s t : Fin 2048) :
    val_main_v26 (F := Ideal) x0 x1 x3 x4 (ix4 n h s t)
      = score (val_main_v19 (F := Ideal) x0 x3 x4) (val_main_v21 (F := Ideal) x1 x3 x4) n h s t := by
  rw [val_main_v26_apply, val_main_v24_apply, val_main_v25_apply, val_main_cst_apply, Ideal.mulf_def, Ideal.ofBits_def]
  generalize val_main_v19 (F := Ideal) x0 x3 x4 = q
  generalize val_main_v21 (F := Ideal) x1 x3 x4 = k
  unfold score
  simp only [lidx24_eq, ridx24_eq]

/-! ## The row maximum -/

/-- Minus infinity is the unit of max. -/
theorem negInf_max (y : EReal) : max (Ideal.ofBits .f32 0xFF800000#32) y = y := by
  simp [Ideal.ofBits, Ideal.ieee]

/-- The reduced index (n, h, s) with key position k put back is (n, h, s, k). -/
theorem lift_ix4 (hr : S2x16x2048x2048.Reduces [3] S2x16x2048) (n : Fin 2) (h : Fin 16) (s : Fin 2048)
    (k : Fin (S2x16x2048x2048.size 3)) : hr.lift (ix3 n h s) k = ix4 n h s (⟨k.val, k.isLt⟩ : Fin 2048) := by
  funext c; apply Fin.ext
  fin_cases c <;> rfl

/-- The maximum-reduce over the key axis, from minus infinity, at row (n, h, s): the row's maximum. -/
theorem hostMax_apply (y : (⟨S2x16x2048x2048, .f32⟩ : BufTy).Contents (Elt Ideal)) (n : Fin 2) (h : Fin 16) (s : Fin 2048) :
    Host.reduce (FloatOps.maximumf (F := Ideal) (φ := .f32)) y (val_main_cst_0 (F := Ideal))
        reducesTo_S2x16x2048x2048_S2x16x2048_d3 h_S_ (ix3 n h s)
      = rowMax fun t => y (ix4 n h s t) := by
  have hr : S2x16x2048x2048.Reduces [3] S2x16x2048 := by decide
  rw [Host.reduce_eq_fold_single (FloatOps.maximumf (F := Ideal) (φ := .f32)) y _ reducesTo_S2x16x2048x2048_S2x16x2048_d3 hr h_S_]
  have hf : (y ∘ hr.lift (ix3 n h s)) = fun t : Fin 2048 => y (ix4 n h s t) :=
    funext fun k => congrArg y (lift_ix4 hr n h s k)
  unfold rowMax
  exact congrArg (fun f => Finset.fold max (Ideal.ofBits .f32 0xFF800000#32) f (Finset.univ : Finset (Fin 2048))) hf

theorem max_eq (x0 x1 : (⟨S2x2048x1024, .f32⟩ : BufTy).Contents (Elt Ideal)) (x3 : (⟨S3072x1024, .f32⟩ : BufTy).Contents (Elt Ideal))
    (x4 : (⟨S3072, .f32⟩ : BufTy).Contents (Elt Ideal)) (n : Fin 2) (h : Fin 16) (s : Fin 2048) :
    val_main_v29 (F := Ideal) x0 x1 x3 x4 (ix3 n h s)
      = rowMax (score (val_main_v19 (F := Ideal) x0 x3 x4) (val_main_v21 (F := Ideal) x1 x3 x4) n h s) := by
  rw [val_main_v29_apply, val_main_v28_apply, val_main_cst_1_apply, Ideal.maximumf_def, Ideal.ofBits_def, negInf_max]
  unfold val_main_v27
  rw [hostMax_apply]
  exact congrArg rowMax (funext fun t => score_eq x0 x1 x3 x4 n h s t)

/-! ## The weights -/

theorem unnorm_eq (x0 x1 : (⟨S2x2048x1024, .f32⟩ : BufTy).Contents (Elt Ideal)) (x3 : (⟨S3072x1024, .f32⟩ : BufTy).Contents (Elt Ideal))
    (x4 : (⟨S3072, .f32⟩ : BufTy).Contents (Elt Ideal)) (n : Fin 2) (h : Fin 16) (s t : Fin 2048) :
    val_main_v33 (F := Ideal) x0 x1 x3 x4 (ix4 n h s t)
      = unnorm (val_main_v19 (F := Ideal) x0 x3 x4) (val_main_v21 (F := Ideal) x1 x3 x4) n h s t := by
  rw [val_main_v33_apply, val_main_v32_apply, val_main_v31_apply, val_main_v30_apply, idx31_eq, max_eq, score_eq,
    Ideal.hostUnary_exp_def, Ideal.subf_def]
  rfl

/-- The row's sum from zero is the bare sum. -/
theorem sum_eq (x0 x1 : (⟨S2x2048x1024, .f32⟩ : BufTy).Contents (Elt Ideal)) (x3 : (⟨S3072x1024, .f32⟩ : BufTy).Contents (Elt Ideal))
    (x4 : (⟨S3072, .f32⟩ : BufTy).Contents (Elt Ideal)) (n : Fin 2) (h : Fin 16) (s : Fin 2048) :
    val_main_v34 (F := Ideal) x0 x1 x3 x4 (ix3 n h s)
      = ∑ t : Fin 2048, unnorm (val_main_v19 (F := Ideal) x0 x3 x4) (val_main_v21 (F := Ideal) x1 x3 x4) n h s t := by
  rw [val_main_v34_apply, val_main_cst_2_apply, Ideal.ofBits_def, Ideal.ofBits_zero_f32, zero_add]
  exact Finset.sum_congr rfl fun t _ => by rw [idx34_eq, unnorm_eq]

theorem weight_eq (x0 x1 : (⟨S2x2048x1024, .f32⟩ : BufTy).Contents (Elt Ideal)) (x3 : (⟨S3072x1024, .f32⟩ : BufTy).Contents (Elt Ideal))
    (x4 : (⟨S3072, .f32⟩ : BufTy).Contents (Elt Ideal)) (n : Fin 2) (h : Fin 16) (s t : Fin 2048) :
    val_main_v37 (F := Ideal) x0 x1 x3 x4 (ix4 n h s t)
      = weight (val_main_v19 (F := Ideal) x0 x3 x4) (val_main_v21 (F := Ideal) x1 x3 x4) n h s t := by
  rw [val_main_v37_apply, val_main_v36_apply, val_main_v35_apply, idx36_eq, sum_eq, unnorm_eq, Ideal.hostDivf_def]
  rfl

/-! ## Attention -/

theorem attend_eq (x0 x1 x2 : (⟨S2x2048x1024, .f32⟩ : BufTy).Contents (Elt Ideal)) (x3 : (⟨S3072x1024, .f32⟩ : BufTy).Contents (Elt Ideal))
    (x4 : (⟨S3072, .f32⟩ : BufTy).Contents (Elt Ideal)) :
    val_main_v38 (F := Ideal) x0 x1 x2 x3 x4
      = attend (val_main_v19 (F := Ideal) x0 x3 x4) (val_main_v21 (F := Ideal) x1 x3 x4) (val_main_v23 (F := Ideal) x2 x3 x4) := by
  funext j
  obtain ⟨n, h, s, d, rfl⟩ : ∃ (n : Fin 2) (h : Fin 16) (s : Fin 2048) (d : Fin 64), j = ix4 n h s d :=
    ⟨j 0, j 1, j 2, j 3, eq_ix4 j⟩
  rw [val_main_v38_apply, attend_apply]
  exact Finset.sum_congr rfl fun t _ => by rw [lidx38_eq, ridx38_eq, weight_eq]

end Cert.ReferenceIdeal.RefValue

end
-- ==== Proof.RefValue.lean ====
/-
  The reference's result is the specification.

  After attention the reference transposes the head-major array back to [2, 2048, 16, 64], merges the
  last two axes into 1024 features, contracts the result with the output matrix over the matrix's SECOND
  axis (so the matrix enters transposed), and adds the output bias broadcast over batch and position. Read
  at (n, s, e) the merge and the transposition land on head e / 64, lane e % 64: the row-major offset
  (n * 2048 + s) * 1024 + e is ((n * 2048 + s) * 16 + e / 64) * 64 + e % 64. With the three input layers
  and attention already read as the specification's, the whole program is the specification's composition.
-/
import proofs.«157763_j27376121545288_2_alg».proof.Proof.Gen.ReferenceIdeal.Read
import proofs.«157763_j27376121545288_2_alg».proof.Proof.Spec
import proofs.«157763_j27376121545288_2_alg».proof.Proof.RefProj
import proofs.«157763_j27376121545288_2_alg».proof.Proof.RefAttn

noncomputable section

open scoped BigOperators

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MHA

/-- Feature e at position s, read through the merge of the heads and the transposition, is lane e % 64 of
    head e / 64 at position s of the head-major array. -/
theorem merge_idx (n : Fin 2) (s : Fin 2048) (f e : Fin 1024) :
    idx_main_v39 (idx_main_v40 (lidx_main_v41 (ix3 n s f) e)) = ix4 n (headOf e) s (laneOf e) := by
  funext a
  apply Fin.ext
  have := n.isLt; have := s.isLt; have := e.isLt
  match a with
  | ⟨0, _⟩ => show ((n.val * 2048 + s.val) * 1024 + e.val) / 2097152 = n.val; omega
  | ⟨1, _⟩ => show ((n.val * 2048 + s.val) * 1024 + e.val) / 64 % 16 = e.val / 64; omega
  | ⟨2, _⟩ => show ((n.val * 2048 + s.val) * 1024 + e.val) / 1024 % 2048 = s.val; omega
  | ⟨3, _⟩ => show ((n.val * 2048 + s.val) * 1024 + e.val) % 64 = e.val % 64; omega

/-- The output matrix enters transposed: row f, column e. -/
theorem ridx41_eq (n : Fin 2) (s : Fin 2048) (f e : Fin 1024) : ridx_main_v41 (ix3 n s f) e = ix2 f e :=
  funext fun a => Fin.ext (by match a with | ⟨0, _⟩ => rfl | ⟨1, _⟩ => rfl)

/-- The output bias through its two broadcasts: entry f. -/
theorem bidx43_eq (n : Fin 2) (s : Fin 2048) (f : Fin 1024) : idx_main_v42 (idx_main_v43 (ix3 n s f)) = ix1 f :=
  funext fun a => Fin.ext (by match a with | ⟨0, _⟩ => rfl)

/-- The output layer on the attention stage. -/
theorem out_eq (x0 x1 x2 : (⟨S2x2048x1024, .f32⟩ : BufTy).Contents (Elt Ideal)) (x3 : (⟨S3072x1024, .f32⟩ : BufTy).Contents (Elt Ideal))
    (x4 : (⟨S3072, .f32⟩ : BufTy).Contents (Elt Ideal)) (x5 : (⟨S1024x1024, .f32⟩ : BufTy).Contents (Elt Ideal))
    (x6 : (⟨S1024, .f32⟩ : BufTy).Contents (Elt Ideal)) :
    val_main_v44 (F := Ideal) x0 x1 x2 x3 x4 x5 x6
      = outp (val_main_v38 (F := Ideal) x0 x1 x2 x3 x4) (transp x5) (asRow x6) := by
  funext i
  obtain ⟨n, s, f, rfl⟩ : ∃ (n : Fin 2) (s : Fin 2048) (f : Fin 1024), i = ix3 n s f := ⟨i 0, i 1, i 2, eq_ix3 i⟩
  rw [val_main_v44_apply, val_main_v41_apply, val_main_v43_apply, val_main_v42_apply, bidx43_eq, Ideal.addf_def,
    outp_apply, asRow_apply]
  refine congrArg (· + x6 (ix1 f)) (Finset.sum_congr rfl fun e _ => ?_)
  rw [val_main_v40_apply, val_main_v39_apply, merge_idx, ridx41_eq, transp_apply]

/-- The reference's result, as a function of its seven arguments, is multi-head attention. -/
theorem result_eq (x0 x1 x2 : (⟨S2x2048x1024, .f32⟩ : BufTy).Contents (Elt Ideal)) (x3 : (⟨S3072x1024, .f32⟩ : BufTy).Contents (Elt Ideal))
    (x4 : (⟨S3072, .f32⟩ : BufTy).Contents (Elt Ideal)) (x5 : (⟨S1024x1024, .f32⟩ : BufTy).Contents (Elt Ideal))
    (x6 : (⟨S1024, .f32⟩ : BufTy).Contents (Elt Ideal)) :
    Cert.ReferenceIdeal.Read.val_main_v44 (F := Ideal) x0 x1 x2 x3 x4 x5 x6 = Cert.MHA.mha x0 x1 x2 x3 x4 x5 x6 := by
  rw [out_eq, attend_eq, proj0_eq, proj1_eq, proj2_eq]
  rfl

end Cert.ReferenceIdeal.RefValue

end
-- ==== Proof.lean ====
/-
  Multi-head attention as five kernels against its plain array form, on the extended reals.

  The kernel program projects queries, keys and values into head-major layout with three kernels, runs attention
  with one kernel per batch, head and tile of 512 query positions, and applies the output layer with a fifth; the
  reference does the same with whole-array operations. On the extended reals a change of float format is the
  identity and every operation exact, so both are one function of the seven arguments, Cert.MHA.mha: the same
  contractions, the same scale 1/8, the same maximum, exponential, sum and quotient, the same output layer, read
  through different tilings and layouts. No entry needs to be finite for that: only indices are rearranged.

  The three frames: the kernel's and its idealization's are the launch of the five regions among the host
  operations, the reference's its line of host operations run. The idealization rewrote no operation. The value:
  the kernel's result buffer at the last segment boundary (KernelRun) is the specification of the arguments
  (KernelValue, over one module per region), and so is the reference's composed term (RefValue).
-/
import proofs.«157763_j27376121545288_2_alg».proof.Defs
import proofs.«157763_j27376121545288_2_alg».proof.Proof.Gen.Kernel
import proofs.«157763_j27376121545288_2_alg».proof.Proof.Gen.Kernel.Skeleton
import proofs.«157763_j27376121545288_2_alg».proof.Proof.Gen.Kernel.Launch
import proofs.«157763_j27376121545288_2_alg».proof.Proof.Gen.Kernel.Points
import proofs.«157763_j27376121545288_2_alg».proof.Proof.Gen.Kernel.Frame
import proofs.«157763_j27376121545288_2_alg».proof.Proof.Gen.KernelIdeal
import proofs.«157763_j27376121545288_2_alg».proof.Proof.Gen.KernelIdeal.Skeleton
import proofs.«157763_j27376121545288_2_alg».proof.Proof.Gen.KernelIdeal.Launch
import proofs.«157763_j27376121545288_2_alg».proof.Proof.Gen.KernelIdeal.Points
import proofs.«157763_j27376121545288_2_alg».proof.Proof.Gen.KernelIdeal.Frame
import proofs.«157763_j27376121545288_2_alg».proof.Proof.Gen.ReferenceIdeal
import proofs.«157763_j27376121545288_2_alg».proof.Proof.Gen.ReferenceIdeal.Run
import proofs.«157763_j27376121545288_2_alg».proof.Proof.Gen.ReferenceIdeal.Read
import proofs.«157763_j27376121545288_2_alg».proof.Proof.Gen.Pre_finite_inputs
import proofs.«157763_j27376121545288_2_alg».proof.Proof.KernelRun
import proofs.«157763_j27376121545288_2_alg».proof.Proof.KernelValue
import proofs.«157763_j27376121545288_2_alg».proof.Proof.RefValue
import Idealize.ShloMosaic.Adequacy
import Idealize.ShloMosaic.Init

noncomputable section

namespace Cert.Proof.Claims

open Idealize.ShloMosaic Idealize.ShloMosaic.TcCoe Idealize.SL.Sem

/-- The printed kernel runs and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: the idealization is the program's own text read on the extended reals. -/
theorem preserves : Cert.preserves_Kernel_KernelIdeal := trivial

/-- On the extended reals both programs end at the one multi-head-attention function of the seven arguments:
    the kernel through its five regions, the reference through its line of host operations. -/
theorem algebraic : Cert.algebraic_KernelIdeal_ReferenceIdeal := by
  intro m ρ m' ρ' _ hagree
  refine ⟨fun c => Cert.MHA.mha
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.value m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v44_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
